-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x4096 : Shape := ⟨2, ![256, 4096]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S256x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S256x4096 .f32 := Host.absf main_arg4
  let main_cst_6 : FVec F S_ .f32 := constant S_ .f32 0x7F800000#32
  let main_v20 : FVec F S256x4096 .f32 := broadcastInDim S256x4096 ![] bcast_S_S256x4096 main_cst_6
  let main_v21 : IVec S256x4096 1 := cmpf .olt main_v19 main_v20
  let main_c_7 : IVec S_ 1 := constantI S_ 1 1#1
  let main_v22 : IVec S_ 1 := (fun x v => Host.reduce IntOp.andi x v reducesTo_S256x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S256x4096 .f32) (main_arg3 : FVec F S4096 .f32) (main_arg4 : FVec F S256x4096 .f32) (main_arg5 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4096x256 : Shape := ⟨2, ![4096, 256]⟩
abbrev S256x4096 : Shape := ⟨2, ![256, 4096]⟩
abbrev S4096 : Shape := ⟨1, ![4096]⟩
abbrev S256x256x16 : Shape := ⟨3, ![256, 256, 16]⟩
abbrev S256x16x256 : Shape := ⟨3, ![256, 16, 256]⟩
abbrev S256x16 : Shape := ⟨2, ![256, 16]⟩
abbrev S16x256 : Shape := ⟨2, ![16, 256]⟩
abbrev S128x256 : Shape := ⟨2, ![128, 256]⟩
abbrev S128x16x256 : Shape := ⟨3, ![128, 16, 256]⟩
abbrev S128x4096 : Shape := ⟨2, ![128, 4096]⟩
abbrev S1x4096 : Shape := ⟨2, ![1, 4096]⟩
abbrev S16x16x256 : Shape := ⟨3, ![16, 16, 256]⟩
abbrev S16x256x256 : Shape := ⟨3, ![16, 256, 256]⟩

abbrev nBuf : Space → Nat
  | .hbm => 16
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S256x4096, .f32⟩
  | .hbm, ⟨5, _⟩ => ⟨S4096, .f32⟩
  | .hbm, ⟨6, _⟩ => ⟨S256x256x16, .f32⟩
  | .hbm, ⟨7, _⟩ => ⟨S256x16x256, .f32⟩
  | .hbm, ⟨8, _⟩ => ⟨S256x4096, .f32⟩
  | .hbm, ⟨9, _⟩ => ⟨S256x4096, .bf16⟩
  | .hbm, ⟨10, _⟩ => ⟨S256x16, .f32⟩
  | .hbm, ⟨11, _⟩ => ⟨S16x256, .f32⟩
  | .hbm, ⟨12, _⟩ => ⟨S4096, .f32⟩
  | .hbm, ⟨13, _⟩ => ⟨S256x4096, .bf16⟩
  | .hbm, ⟨14, _⟩ => ⟨S4096x256, .f32⟩
  | .hbm, ⟨15, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S256x4096, .bf16⟩
  | .local _ .vmem, ⟨5, _⟩ => ⟨S4096, .f32⟩
  | .local _ .vmem, ⟨6, _⟩ => ⟨S256x4096, .bf16⟩
  | .local _ .vmem, ⟨7, _⟩ => ⟨S4096, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x16x256, .bf16⟩
  | .local _ .vmem, ⟨13, _⟩ => ⟨S128x16x256, .bf16⟩
  | .local _ .vmem, ⟨14, _⟩ => ⟨S128x256, .f32⟩
  | .local _ .vmem, ⟨15, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v33 : BitVec 32 := Scalar.addi c0_i32 c8_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c16_i32 : BitVec 32 := 16#32
  let v40 : BitVec 32 := Scalar.muli arg13 c16_i32
  v40
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let c16_i32 : BitVec 32 := 16#32
  let v40 : BitVec 32 := Scalar.muli arg13 c16_i32
  let v41 : BitVec 32 := v40
  let v42 : Index := Scalar.indexCast v41
  let c0_27 : Index := 0#32
  let c0_28 : Index := 0#32
  ![v42.toNat, 0, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c16_i32 : BitVec 32 := 16#32
  let v40 : BitVec 32 := Scalar.muli arg13 c16_i32
  let v41 : BitVec 32 := v40
  let v52 : Index := Scalar.indexCast v41
  let c0_34 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x4096_S256x256x16 : S256x4096.ShapeCasts S256x256x16
  transposes_S256x256x16_S256x16x256_0_2_1 : S256x256x16.Transposes [0, 2, 1] S256x16x256
  shapeCasts_S256x16x256_S256x4096 : S256x16x256.ShapeCasts S256x4096
  bitsLt_bf16_f32 : FTy.bits .bf16 < FTy.bits .f32
  shapeCasts_S4096_S256x16 : S4096.ShapeCasts S256x16
  transposes_S256x16_S16x256_1_0 : S256x16.Transposes [1, 0] S16x256
  shapeCasts_S16x256_S4096 : S16x256.ShapeCasts S4096
  inb_S128x256_S128x256_0_0 : ∀ a, (![0, 0] : Fin 2 → Nat) a + S128x256.size a ≤ S128x256.size a
  h_S128x256 : 0 < S128x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S128x4096 : S1x4096.Broadcasts S128x4096
  shapeCasts_S128x4096_S128x16x256 : S128x4096.ShapeCasts S128x16x256
  inb_S128x16x256_S128x16x256_0_0_0 : ∀ a, (![0, 0, 0] : Fin 3 → Nat) a + S128x16x256.size a ≤ S128x16x256.size a
  h_S128x16x256 : 0 < S128x16x256.numel
  shapeCasts_S128x16x256_S128x16x256 : S128x16x256.ShapeCasts S128x16x256
  packedbf16_S128x16x256_S128x16x256_0_0_0 : (Rect.unit (s := S128x16x256) ![0, 0, 0] S128x16x256.size inb_S128x16x256_S128x16x256_0_0_0).PackedRows (EltTy.packing .bf16)
  h_S16x16x256 : 0 < S16x16x256.numel
  reduces_S16x256x256_S16x256 : S16x256x256.Reduces [2] S16x256
  h_S16x256 : 0 < S16x256.numel
  shapeCasts_S16x256_S16x256 : S16x256.ShapeCasts S16x256
  reduces_S16x256x256_S16x256_2 : S16x256x256.Reduces [1] S16x256
  dot_S128x256_S256x4096_S128x4096_1_0_0_1_n_n_wf : DotDims.WF S128x256 S256x4096 S128x4096 [1] [0] [0] [1] [] []
  dot_S16x16x256_S16x16x256_S16x256x256_1_1_2_2_0_0_wf : DotDims.WF S16x16x256 S16x16x256 S16x256x256 [1] [1] [2] [2] [0] [0]
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x16x256.size a ≤ S128x16x256.size a
  k0_off2_inb : ∀ k0_t1 : Fin k0_t1_loop.trips, ∀ a, (k0_off2 k0_t1) a + S16x256.size a ≤ S128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .f32 = 32 ∨ (Rect.block (s := S4096x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .f32 = 32 ∨ (Rect.block (s := S4096x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x4096.size a
  hwx0_2 : ∀ i : grid0.Coords, EltTy.bits .bf16 = 32 ∨ (Rect.block (s := S256x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S256x4096.size a
  hwx0_4 : ∀ i : grid0.Coords, EltTy.bits .bf16 = 32 ∨ (Rect.block (s := S256x4096) S256x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S4096x256.size a
  hwx0_6 : ∀ i : grid0.Coords, EltTy.bits .f32 = 32 ∨ (Rect.block (s := S4096x256) S128x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S4096x256.size a
  hwx0_7 : ∀ i : grid0.Coords, EltTy.bits .f32 = 32 ∨ (Rect.block (s := S4096x256) S128x256.size (cc0_transform_7 i) (hinb0_7 i)).WholeWords (EltTy.packing .f32)

variable [Facts₀]

def dot_S128x256_S256x4096_S128x4096_1_0_0_1_n_n : DotDims S128x256 S256x4096 S128x4096 where
  lhsContracting := [1]
  rhsContracting := [0]
  lhsNonContracting := [0]
  rhsNonContracting := [1]
  lhsBatch := []
  rhsBatch := []
  wf := dot_S128x256_S256x4096_S128x4096_1_0_0_1_n_n_wf
def dot_S16x16x256_S16x16x256_S16x256x256_1_1_2_2_0_0 : DotDims S16x16x256 S16x16x256 S16x256x256 where
  lhsContracting := [1]
  rhsContracting := [1]
  lhsNonContracting := [2]
  rhsNonContracting := [2]
  lhsBatch := [0]
  rhsBatch := [0]
  wf := dot_S16x16x256_S16x16x256_S16x256x256_1_1_2_2_0_0_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S256x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S128x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x4096 : Shape := ⟨2, ![256, 4096]⟩
abbrev S4096 : Shape := ⟨1, ![4096]⟩
abbrev S_ : Shape := ⟨0, ![]⟩
abbrev S4096x4096 : Shape := ⟨2, ![4096, 4096]⟩
abbrev S1x4096 : Shape := ⟨2, ![1, 4096]⟩
abbrev S4096x256x16 : Shape := ⟨3, ![4096, 256, 16]⟩
abbrev S4096x16x256 : Shape := ⟨3, ![4096, 16, 256]⟩
abbrev S4096x256x256 : Shape := ⟨3, ![4096, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S256x4096, .f32⟩
  | .hbm, ⟨5, _⟩ => ⟨S4096, .f32⟩
  | .hbm, ⟨6, _⟩ => ⟨S_, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x256x16, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x16x256, .f32⟩
  | .hbm, ⟨23, _⟩ => ⟨S4096x256x256, .f32⟩
  | .hbm, ⟨24, _⟩ => ⟨S4096x256x256, .f32⟩
  | .hbm, ⟨25, _⟩ => ⟨S4096x256x256, .f32⟩
  | .hbm, ⟨26, _⟩ => ⟨S4096x256x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S4096x4096_S4096x256x16 : S4096x4096.ShapeCasts S4096x256x16
  shapeCasts_S4096x4096_S4096x16x256 : S4096x4096.ShapeCasts S4096x16x256
  bcast_S_S4096x256x256 : S_.BroadcastsInDim S4096x256x256 (![] : Fin 0 → Fin S4096x256x256.rank)
  reducesTo_S4096x256x256_S4096x256_d2 : S4096x256x256.ReducesTo [2] S4096x256
  h_S_ : 0 < S_.numel
  reducesTo_S4096x256x256_S4096x256_d1 : S4096x256x256.ReducesTo [1] S4096x256
  dot_S4096x256_S256x4096_S4096x4096_1_0_0_1_n_n_wf : DotDims.WF S4096x256 S256x4096 S4096x4096 [1] [0] [0] [1] [] []
  dot_S4096x256x16_S4096x16x256_S4096x256x256_2_1_1_2_0_0_wf : DotDims.WF S4096x256x16 S4096x16x256 S4096x256x256 [2] [1] [1] [2] [0] [0]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x256x16_S4096x16x256_S4096x256x256_2_1_1_2_0_0 : DotDims S4096x256x16 S4096x16x256 S4096x256x256 where
  lhsContracting := [2]
  rhsContracting := [1]
  lhsNonContracting := [1]
  rhsNonContracting := [2]
  lhsBatch := [0]
  rhsBatch := [0]
  wf := dot_S4096x256x16_S4096x16x256_S4096x256x256_2_1_1_2_0_0_wf

class Facts : Prop extends Facts₀ where

variable [Facts]
-- ==== Proof.Spec.lean ====
/-
  The specification. Both programs compute, for a batch of 4096 rows, two projections with a positive part,
      D[b, n] = max (∑ₖ drug[b, k] · W_d[k, n] + b_d[n]) 0,    P[b, n] = max (∑ₖ protein[b, k] · W_p[k, n] + b_p[n]) 0,
  an interaction map over sixteen heads, the drug's columns read head-minor (column 16 d + h) and the protein's
  head-major (column 256 h + p),
      I[b, d, p] = tanh ((∑ₕ D[b, 16 d + h] · P[b, 256 h + p]) · 1/16),
  and two gated results,
      drug[b, d] · tanh (∑ₚ I[b, d, p])    and    protein[b, p] · tanh (∑_d I[b, d, p]),
  all on the extended reals. This module states them index by index over explicit coordinates and imports no
  program. It also holds the two float constants the programs spell — 0.0625 is the real 1/16, 16.0 the real 16 —
  and the one law that joins the two programs: dividing an extended real by 16 is multiplying it by 1/16.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of the two activations and of the two results: 4096 rows of 256 features. -/
abbrev Act : Shape := ⟨2, ![4096, 256]⟩
/-- The shape of a weight matrix: 256 input features by 4096 = 256 · 16 output columns. -/
abbrev Wt : Shape := ⟨2, ![256, 4096]⟩
/-- The shape of a bias vector. -/
abbrev Bias : Shape := ⟨1, ![4096]⟩

/-- The drug projection's column for feature `d` and head `h`: heads vary fastest. -/
def colD (d : Fin 256) (h : Fin 16) : Fin 4096 :=
  ⟨16 * d.val + h.val, by have := d.isLt; have := h.isLt; omega⟩

/-- The protein projection's column for head `h` and feature `p`: features vary fastest. -/
def colP (h : Fin 16) (p : Fin 256) : Fin 4096 :=
  ⟨256 * h.val + p.val, by have := h.isLt; have := p.isLt; omega⟩

/-- Entry `(b, n)` of a projection: the row's inner product with column `n`, plus the bias, positive part. -/
def proj (x : Act.Idx → EReal) (W : Wt.Idx → EReal) (β : Bias.Idx → EReal) (b n : Fin 4096) : EReal :=
  max ((∑ k : Fin 256, x (ix2 b k) * W (ix2 k n)) + β (ix1 n)) 0

/-- Entry `(b, d, p)` of the interaction map: the two projections contracted over the sixteen heads, scaled by
    1/16, through tanh. -/
def inter (drug protein : Act.Idx → EReal) (Wd : Wt.Idx → EReal) (βd : Bias.Idx → EReal) (Wp : Wt.Idx → EReal)
    (βp : Bias.Idx → EReal) (b : Fin 4096) (d p : Fin 256) : EReal :=
  Ideal.tanh ((∑ h : Fin 16, proj drug Wd βd b (colD d h) * proj protein Wp βp b (colP h p)) * ((1 / 16 : ℝ) : EReal))

/-- The first result at `(b, d)`: the drug entry gated by tanh of the map summed over the protein features. -/
def drugOut (drug protein : Act.Idx → EReal) (Wd : Wt.Idx → EReal) (βd : Bias.Idx → EReal) (Wp : Wt.Idx → EReal)
    (βp : Bias.Idx → EReal) (b : Fin 4096) (d : Fin 256) : EReal :=
  drug (ix2 b d) * Ideal.tanh (∑ p : Fin 256, inter drug protein Wd βd Wp βp b d p)

/-- The second result at `(b, p)`: the protein entry gated by tanh of the map summed over the drug features. -/
def protOut (drug protein : Act.Idx → EReal) (Wd : Wt.Idx → EReal) (βd : Bias.Idx → EReal) (Wp : Wt.Idx → EReal)
    (βp : Bias.Idx → EReal) (b : Fin 4096) (p : Fin 256) : EReal :=
  protein (ix2 b p) * Ideal.tanh (∑ d : Fin 256, inter drug protein Wd βd Wp βp b d p)

/-- The first result as a whole array. -/
def drugArr (drug protein : Act.Idx → EReal) (Wd : Wt.Idx → EReal) (βd : Bias.Idx → EReal) (Wp : Wt.Idx → EReal)
    (βp : Bias.Idx → EReal) : Act.Idx → EReal :=
  fun i => drugOut drug protein Wd βd Wp βp (i 0) (i 1)

/-- The second result as a whole array. -/
def protArr (drug protein : Act.Idx → EReal) (Wd : Wt.Idx → EReal) (βd : Bias.Idx → EReal) (Wp : Wt.Idx → EReal)
    (βp : Bias.Idx → EReal) : Act.Idx → EReal :=
  fun i => protOut drug protein Wd βd Wp βp (i 0) (i 1)

/-! ## The constants, and the law between the two programs -/

/-- The pattern of `0.0625` denotes the real `1/16` (it is `2⁻⁴`, exactly). -/
theorem ofBits_sixteenth : Ideal.ofBits .f32 0x3D800000#32 = ((1 / 16 : ℝ) : EReal) := by
  simp [Ideal.ofBits, Ideal.ieee, -EReal.coe_mul]; norm_num

/-- The pattern of `16.0` denotes the real `16`. -/
theorem ofBits_sixteen : Ideal.ofBits .f32 0x41800000#32 = ((16 : ℝ) : EReal) := by
  simp [Ideal.ofBits, Ideal.ieee, -EReal.coe_mul]; norm_num

/-- Dividing by `16.0` is multiplying by `1/16`, on every extended real: no finiteness is needed. -/
theorem div_sixteen (x : EReal) : Ideal.div x (Ideal.ofBits .f32 0x41800000#32) = x * ((1 / 16 : ℝ) : EReal) := by
  rw [ofBits_sixteen, Ideal.div_coe (by norm_num : (16 : ℝ) ≠ 0)]

end Cert.Spec

end
-- ==== Proof.RefValue.lean ====
/-
  The reference computes the specification. Its operations are read one at a time at an index: each projection
  entry is the row's inner product with a weight column plus the bias, compared with zero; the reshape of the drug
  projection to [4096, 256, 16] reads column 16 d + h and that of the protein projection to [4096, 16, 256] column
  256 h + p (row-major positions); the batched product contracts the sixteen heads; the quotient by 16.0 is the
  product with 1/16; the two sums start from the zero word, which is the extended real 0.
-/
import proofs.«156675_j88983132438605_2_alg».proof.Proof.Spec
import proofs.«156675_j88983132438605_2_alg».proof.Proof.Gen.ReferenceIdeal.Read

noncomputable section

open scoped BigOperators

namespace Cert.RefValue

open Cert.ReferenceIdeal Cert.ReferenceIdeal.Read Idealize.ShloMosaic Idealize.ShloMosaic.ValueIdx Cert.Spec

/-! ## The index maps of the generated reading, at explicit coordinates -/

theorem lidx_v0 (b n : Fin 4096) (k : Fin 256) : lidx_main_v0 (ix2 b n) k = ix2 b k :=
  funext fun a => Fin.ext (by match a with | ⟨0, _⟩ => rfl | ⟨1, _⟩ => rfl)
theorem ridx_v0 (b n : Fin 4096) (k : Fin 256) : ridx_main_v0 (ix2 b n) k = ix2 k n :=
  funext fun a => Fin.ext (by match a with | ⟨0, _⟩ => rfl | ⟨1, _⟩ => rfl)
theorem idx_v1v2 (b n : Fin 4096) : idx_main_v1 (idx_main_v2 (ix2 b n)) = ix1 n :=
  funext fun a => Fin.ext (by match a with | ⟨0, _⟩ => rfl)
theorem lidx_v6 (b n : Fin 4096) (k : Fin 256) : lidx_main_v6 (ix2 b n) k = ix2 b k :=
  funext fun a => Fin.ext (by match a with | ⟨0, _⟩ => rfl | ⟨1, _⟩ => rfl)
theorem ridx_v6 (b n : Fin 4096) (k : Fin 256) : ridx_main_v6 (ix2 b n) k = ix2 k n :=
  funext fun a => Fin.ext (by match a with | ⟨0, _⟩ => rfl | ⟨1, _⟩ => rfl)
theorem idx_v7v8 (b n : Fin 4096) : idx_main_v7 (idx_main_v8 (ix2 b n)) = ix1 n :=
  funext fun a => Fin.ext (by match a with | ⟨0, _⟩ => rfl)

/-- Position `(b, d, h)` of [4096, 256, 16] is position `(b, 16 d + h)` of [4096, 4096]. -/
theorem idx_v5 (b : Fin 4096) (d : Fin 256) (h : Fin 16) : idx_main_v5 (ix3 b d h) = ix2 b (colD d h) :=
  funext fun a => Fin.ext (by
    have hb := b.isLt; have hd := d.isLt; have hh := h.isLt
    match a with
    | ⟨0, _⟩ => show ((b.val * 256 + d.val) * 16 + h.val) / 4096 = b.val; omega
    | ⟨1, _⟩ => show ((b.val * 256 + d.val) * 16 + h.val) % 4096 = 16 * d.val + h.val; omega)

/-- Position `(b, h, p)` of [4096, 16, 256] is position `(b, 256 h + p)` of [4096, 4096]. -/
theorem idx_v11 (b : Fin 4096) (h : Fin 16) (p : Fin 256) : idx_main_v11 (ix3 b h p) = ix2 b (colP h p) :=
  funext fun a => Fin.ext (by
    have hb := b.isLt; have hh := h.isLt; have hp := p.isLt
    match a with
    | ⟨0, _⟩ => show ((b.val * 16 + h.val) * 256 + p.val) / 4096 = b.val; omega
    | ⟨1, _⟩ => show ((b.val * 16 + h.val) * 256 + p.val) % 4096 = 256 * h.val + p.val; omega)

theorem lidx_v12 (b : Fin 4096) (d p : Fin 256) (k : Fin 16) : lidx_main_v12 (ix3 b d p) k = ix3 b d k :=
  funext fun a => Fin.ext (by match a with | ⟨0, _⟩ => rfl | ⟨1, _⟩ => rfl | ⟨2, _⟩ => rfl)
theorem ridx_v12 (b : Fin 4096) (d p : Fin 256) (k : Fin 16) : ridx_main_v12 (ix3 b d p) k = ix3 b k p :=
  funext fun a => Fin.ext (by match a with | ⟨0, _⟩ => rfl | ⟨1, _⟩ => rfl | ⟨2, _⟩ => rfl)
theorem idx_v16 (b : Fin 4096) (d : Fin 256) (k : Fin 256) : idx_main_v16 (ix2 b d) k = ix3 b d k :=
  funext fun a => Fin.ext (by match a with | ⟨0, _⟩ => rfl | ⟨1, _⟩ => rfl | ⟨2, _⟩ => rfl)
theorem idx_v18 (b : Fin 4096) (p : Fin 256) (k : Fin 256) : idx_main_v18 (ix2 b p) k = ix3 b k p :=
  funext fun a => Fin.ext (by match a with | ⟨0, _⟩ => rfl | ⟨1, _⟩ => rfl | ⟨2, _⟩ => rfl)

/-! ## The stages -/

variable (x0 x1 : (⟨S4096x256, .f32⟩ : BufTy).Contents (Elt Ideal)) (x2 : (⟨S256x4096, .f32⟩ : BufTy).Contents (Elt Ideal))
  (x3 : (⟨S4096, .f32⟩ : BufTy).Contents (Elt Ideal)) (x4 : (⟨S256x4096, .f32⟩ : BufTy).Contents (Elt Ideal))
  (x5 : (⟨S4096, .f32⟩ : BufTy).Contents (Elt Ideal))

/-- The drug projection after its positive part, at `(b, n)`. -/
theorem v4_at (b n : Fin 4096) : val_main_v4 (F := Ideal) x0 x2 x3 (ix2 b n) = proj x0 x2 x3 b n := by
  rw [val_main_v4_apply, val_main_v3_apply, val_main_v0_apply, val_main_v2_apply, val_main_v1_apply,
    val_main_call0_v0_apply, val_main_call0_cst_apply]
  simp only [lidx_v0, ridx_v0, idx_v1v2, Ideal.maximumf_def, Ideal.addf_def, Ideal.ofBits_def, Ideal.ofBits_zero_f32]
  rfl

/-- The protein projection after its positive part, at `(b, n)`. -/
theorem v10_at (b n : Fin 4096) : val_main_v10 (F := Ideal) x1 x4 x5 (ix2 b n) = proj x1 x4 x5 b n := by
  rw [val_main_v10_apply, val_main_v9_apply, val_main_v6_apply, val_main_v8_apply, val_main_v7_apply,
    val_main_call1_v0_apply, val_main_call1_cst_apply]
  simp only [lidx_v6, ridx_v6, idx_v7v8, Ideal.maximumf_def, Ideal.addf_def, Ideal.ofBits_def, Ideal.ofBits_zero_f32]
  rfl

/-- The drug projection reshaped: feature `d`, head `h` is column `16 d + h`. -/
theorem v5_at (b : Fin 4096) (d : Fin 256) (h : Fin 16) :
    val_main_v5 (F := Ideal) x0 x2 x3 (ix3 b d h) = proj x0 x2 x3 b (colD d h) := by
  rw [val_main_v5_apply, idx_v5, v4_at]

/-- The protein projection reshaped: head `h`, feature `p` is column `256 h + p`. -/
theorem v11_at (b : Fin 4096) (h : Fin 16) (p : Fin 256) :
    val_main_v11 (F := Ideal) x1 x4 x5 (ix3 b h p) = proj x1 x4 x5 b (colP h p) := by
  rw [val_main_v11_apply, idx_v11, v10_at]

/-- The interaction map: the heads contracted, divided by 16.0, through tanh. -/
theorem v15_at (b : Fin 4096) (d p : Fin 256) :
    val_main_v15 (F := Ideal) x0 x1 x2 x3 x4 x5 (ix3 b d p) = inter x0 x1 x2 x3 x4 x5 b d p := by
  rw [val_main_v15_apply, val_main_v14_apply, val_main_v12_apply, val_main_v13_apply, val_main_cst_apply]
  simp only [lidx_v12, ridx_v12, v5_at, v11_at, Ideal.hostUnary_tanh_def, Ideal.hostDivf_def, Ideal.ofBits_def, div_sixteen]
  rfl

/-- The first result is the specification's. -/
theorem result0_eq : val_main_v20 (F := Ideal) x0 x1 x2 x3 x4 x5 = drugArr x0 x1 x2 x3 x4 x5 := by
  funext i
  obtain ⟨b, d, rfl⟩ : ∃ (b : Fin 4096) (d : Fin 256), i = ix2 b d := ⟨i 0, i 1, eq_ix2 i⟩
  rw [val_main_v20_apply, val_main_v17_apply, val_main_v16_apply, val_main_cst_0_apply]
  simp only [idx_v16, v15_at, Ideal.hostUnary_tanh_def, Ideal.mulf_def, Ideal.ofBits_def, Ideal.ofBits_zero_f32, zero_add]
  rfl

/-- The second result is the specification's. -/
theorem result1_eq : val_main_v21 (F := Ideal) x0 x1 x2 x3 x4 x5 = protArr x0 x1 x2 x3 x4 x5 := by
  funext i
  obtain ⟨b, p, rfl⟩ : ∃ (b : Fin 4096) (p : Fin 256), i = ix2 b p := ⟨i 0, i 1, eq_ix2 i⟩
  rw [val_main_v21_apply, val_main_v19_apply, val_main_v18_apply, val_main_cst_1_apply]
  simp only [idx_v18, v15_at, Ideal.hostUnary_tanh_def, Ideal.mulf_def, Ideal.ofBits_def, Ideal.ofBits_zero_f32, zero_add]
  rfl

end Cert.RefValue

end
-- ==== Proof.KernelPayloads.lean ====
/-
  The kernel body's payloads, read at an index, on the extended reals (every operation exact, the two
  narrowing conversions the identity).

  * The two projection payloads are the same function of their three operands. At (r, h, d) each is
        max (∑ₖ x[r, k] · w[k, 256 h + d] + β[256 h + d]) 0 :
    the [128, 256] × [256, 4096] product into a zero accumulator is the row's inner product with a column;
    the bias, given a leading unit axis and repeated over the 128 rows, is read at the column alone; the
    comparison with the zero word is the positive part; and the [128, 4096] array seen as [128, 16, 256]
    has (r, h, d) at column 256 h + d, the two arrays having the same row-major order.
  * The interaction payload at (r, d, p) is tanh ((∑ₕ u[r, h, d] · v[r, h, p]) · 1/16): a product batched
    over the rows, contracting the sixteen heads, scaled by the word of 0.0625.
  * The two gate payloads are tanh of the interaction summed over its last axis, at (r, d), and over its
    middle axis, at (r, p); a cast to the same shape changes nothing.
  * The two result payloads are entrywise products.
-/
import proofs.«156675_j88983132438605_2_alg».proof.Proof.Spec
import proofs.«156675_j88983132438605_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Cert.KernelIdeal Cert.KernelIdeal.Gen Idealize.ShloMosaic Idealize.ShloMosaic.ValueIdx Cert.Spec

/-! ## Layout: the split of the columns into heads, and the bias repeated over the rows -/

/-- A [128, 4096] array seen as [128, 16, 256] has, at (r, h, d), the entry at (r, 256 h + d): both
    positions are 4096 r + 256 h + d in row-major order. -/
theorem split_at {α : Type} (y : S128x4096.Idx → α) (r : Fin 128) (h : Fin 16) (d : Fin 256) :
    shapeCast S128x16x256 y shapeCasts_S128x4096_S128x16x256 (ix3 r h d) = y (ix2 r (colP h d)) :=
  shapeCast_apply y shapeCasts_S128x4096_S128x16x256 (ix3 r h d) (ix2 r (colP h d)) (by
    rewrite [Shape.rowMajor_val_two, Shape.rowMajor_val_three]
    have hr := r.isLt; have hh := h.isLt; have hd := d.isLt
    show r.val * 4096 + (256 * h.val + d.val) = (r.val * 16 + h.val) * 256 + d.val
    omega)

/-- A [4096] vector given a leading unit axis and repeated over 128 rows is read, at (r, n), at n. -/
theorem bias_at (c : FVec Ideal S4096 .f32) (r : Fin 128) (n : Fin 4096) :
    broadcastTo S128x4096 (shapeCast S1x4096 c shapeCasts_S4096_S1x4096) broadcasts_S1x4096_S128x4096 (ix2 r n)
      = c (ix1 n) :=
  (broadcastTo_1b_ab_apply _ broadcasts_S1x4096_S128x4096 r n).trans
    (shapeCast_a_1a_apply c shapeCasts_S4096_S1x4096 0 n)

/-! ## The projection's product: rows by columns -/

theorem proj_lhs0 (i : S128x4096.Idx) (q : dot_S128x256_S256x4096_S128x4096_1_0_0_1_n_n.contr.Idx) :
    (dot_S128x256_S256x4096_S128x4096_1_0_0_1_n_n.lhsIdx i q 0).val = (i 0).val := by
  unfold DotDims.lhsIdx
  rw [dif_neg (show ¬(0 : Fin S128x256.rank) ∈ dot_S128x256_S256x4096_S128x4096_1_0_0_1_n_n.lhsBatch by decide),
    dif_pos (show (0 : Fin S128x256.rank) ∈ dot_S128x256_S256x4096_S128x4096_1_0_0_1_n_n.lhsNonContracting by decide)]
  rfl
theorem proj_lhs1 (i : S128x4096.Idx) (q : dot_S128x256_S256x4096_S128x4096_1_0_0_1_n_n.contr.Idx) :
    (dot_S128x256_S256x4096_S128x4096_1_0_0_1_n_n.lhsIdx i q 1).val = (q ⟨0, by decide⟩).val :=
  dot_S128x256_S256x4096_S128x4096_1_0_0_1_n_n.lhsIdx_val_of_single rfl i q
theorem proj_rhs0 (i : S128x4096.Idx) (q : dot_S128x256_S256x4096_S128x4096_1_0_0_1_n_n.contr.Idx) :
    (dot_S128x256_S256x4096_S128x4096_1_0_0_1_n_n.rhsIdx i q 0).val = (q ⟨0, by decide⟩).val :=
  dot_S128x256_S256x4096_S128x4096_1_0_0_1_n_n.rhsIdx_val_of_single rfl i q
theorem proj_rhs1 (i : S128x4096.Idx) (q : dot_S128x256_S256x4096_S128x4096_1_0_0_1_n_n.contr.Idx) :
    (dot_S128x256_S256x4096_S128x4096_1_0_0_1_n_n.rhsIdx i q 1).val = (i 1).val := by
  unfold DotDims.rhsIdx
  rw [dif_neg (show ¬(1 : Fin S256x4096.rank) ∈ dot_S128x256_S256x4096_S128x4096_1_0_0_1_n_n.rhsBatch by decide),
    dif_pos (show (1 : Fin S256x4096.rank) ∈ dot_S128x256_S256x4096_S128x4096_1_0_0_1_n_n.rhsNonContracting by decide)]
  rfl

/-- The [128, 256] × [256, 4096] product into the zero array, at (r, n): the inner product of row r
    with column n. -/
theorem proj_matmul_at (a : FVec Ideal S128x256 .bf16) (b : FVec Ideal S256x4096 .bf16) (r : Fin 128) (n : Fin 4096) :
    matmul dot_S128x256_S256x4096_S128x4096_1_0_0_1_n_n none a b (constant S128x4096 .f32 0x00000000#32) (ix2 r n)
      = ∑ k : Fin 256, a (ix2 r k) * b (ix2 k n) := by
  simp only [matmul]
  rw [Ideal.matmul_constant_zero_apply, ← Equiv.sum_comp (ValueIdx.contrEquiv1 dot_S128x256_S256x4096_S128x4096_1_0_0_1_n_n 256 rfl rfl).symm]
  refine Finset.sum_congr rfl fun k _ => ?_
  have hk := ValueIdx.contrEquiv1_symm_val dot_S128x256_S256x4096_S128x4096_1_0_0_1_n_n 256 rfl rfl k
  have el : dot_S128x256_S256x4096_S128x4096_1_0_0_1_n_n.lhsIdx (ix2 r n) ((ValueIdx.contrEquiv1 dot_S128x256_S256x4096_S128x4096_1_0_0_1_n_n 256 rfl rfl).symm k) = ix2 r k := funext fun c => Fin.ext (by
    match c with
    | ⟨0, _⟩ => exact proj_lhs0 _ _
    | ⟨1, _⟩ => exact (proj_lhs1 _ _).trans hk)
  have er : dot_S128x256_S256x4096_S128x4096_1_0_0_1_n_n.rhsIdx (ix2 r n) ((ValueIdx.contrEquiv1 dot_S128x256_S256x4096_S128x4096_1_0_0_1_n_n 256 rfl rfl).symm k) = ix2 k n := funext fun c => Fin.ext (by
    match c with
    | ⟨0, _⟩ => exact (proj_rhs0 _ _).trans hk
    | ⟨1, _⟩ => exact proj_rhs1 _ _)
  rw [el, er]

/-- The projection after its last two casts, at (r, h, d), for any three operands. -/
theorem proj_at (a : FVec Ideal S128x256 .bf16) (b : FVec Ideal S256x4096 .bf16) (c : FVec Ideal S4096 .f32)
    (r : Fin 128) (h : Fin 16) (d : Fin 256) :
    shapeCast S128x16x256
        (shapeCast S128x16x256
          (truncf .bf16
            (maximumf
              (addf (matmul dot_S128x256_S256x4096_S128x4096_1_0_0_1_n_n none a b (constant S128x4096 .f32 0x00000000#32))
                (broadcastTo S128x4096 (shapeCast S1x4096 c shapeCasts_S4096_S1x4096) broadcasts_S1x4096_S128x4096))
              (broadcast S128x4096 (Scalar.ofBits .f32 0x00000000#32)))
            bitsLt_bf16_f32)
          shapeCasts_S128x4096_S128x16x256)
        shapeCasts_S128x16x256_S128x16x256 (ix3 r h d)
      = max ((∑ k : Fin 256, a (ix2 r k) * b (ix2 k (colP h d))) + c (ix1 (colP h d))) 0 := by
  rw [shapeCast_self, split_at, truncf_apply, maximumf_apply, addf_apply, broadcast_apply, proj_matmul_at, bias_at]
  show max _ (Ideal.ofBits .f32 0x00000000#32) = _
  rw [Ideal.ofBits_zero_f32]

theorem pay6_at (x : FVec Ideal S128x256 .f32) (w : FVec Ideal S256x4096 .bf16) (β : FVec Ideal S4096 .f32)
    (r : Fin 128) (h : Fin 16) (d : Fin 256) :
    k0_pay6 (F := Ideal) x w β (ix3 r h d)
      = max ((∑ k : Fin 256, x (ix2 r k) * w (ix2 k (colP h d))) + β (ix1 (colP h d))) 0 := by
  refine (proj_at (truncf .bf16 x bitsLt_bf16_f32) (shapeCast S256x4096 w shapeCasts_S256x4096_S256x4096)
    (shapeCast S4096 β shapeCasts_S4096_S4096) r h d).trans ?_
  rewrite [shapeCast_self w, shapeCast_self β]
  rfl

theorem pay7_at (x : FVec Ideal S128x256 .f32) (w : FVec Ideal S256x4096 .bf16) (β : FVec Ideal S4096 .f32)
    (r : Fin 128) (h : Fin 16) (p : Fin 256) :
    k0_pay7 (F := Ideal) x w β (ix3 r h p)
      = max ((∑ k : Fin 256, x (ix2 r k) * w (ix2 k (colP h p))) + β (ix1 (colP h p))) 0 := by
  refine (proj_at (truncf .bf16 x bitsLt_bf16_f32) (shapeCast S256x4096 w shapeCasts_S256x4096_S256x4096) β r h p).trans ?_
  rewrite [shapeCast_self w]
  rfl

/-! ## The interaction's product: batched over the rows, contracting the heads -/

theorem heads_lhs0 (i : S16x256x256.Idx) (q : dot_S16x16x256_S16x16x256_S16x256x256_1_1_2_2_0_0.contr.Idx) :
    (dot_S16x16x256_S16x16x256_S16x256x256_1_1_2_2_0_0.lhsIdx i q 0).val = (i 0).val := by
  unfold DotDims.lhsIdx
  rw [dif_pos (show (0 : Fin S16x16x256.rank) ∈ dot_S16x16x256_S16x16x256_S16x256x256_1_1_2_2_0_0.lhsBatch by decide)]
  rfl
theorem heads_lhs1 (i : S16x256x256.Idx) (q : dot_S16x16x256_S16x16x256_S16x256x256_1_1_2_2_0_0.contr.Idx) :
    (dot_S16x16x256_S16x16x256_S16x256x256_1_1_2_2_0_0.lhsIdx i q 1).val = (q ⟨0, by decide⟩).val :=
  dot_S16x16x256_S16x16x256_S16x256x256_1_1_2_2_0_0.lhsIdx_val_of_single rfl i q
theorem heads_lhs2 (i : S16x256x256.Idx) (q : dot_S16x16x256_S16x16x256_S16x256x256_1_1_2_2_0_0.contr.Idx) :
    (dot_S16x16x256_S16x16x256_S16x256x256_1_1_2_2_0_0.lhsIdx i q 2).val = (i 1).val := by
  unfold DotDims.lhsIdx
  rw [dif_neg (show ¬(2 : Fin S16x16x256.rank) ∈ dot_S16x16x256_S16x16x256_S16x256x256_1_1_2_2_0_0.lhsBatch by decide),
    dif_pos (show (2 : Fin S16x16x256.rank) ∈ dot_S16x16x256_S16x16x256_S16x256x256_1_1_2_2_0_0.lhsNonContracting by decide)]
  rfl
theorem heads_rhs0 (i : S16x256x256.Idx) (q : dot_S16x16x256_S16x16x256_S16x256x256_1_1_2_2_0_0.contr.Idx) :
    (dot_S16x16x256_S16x16x256_S16x256x256_1_1_2_2_0_0.rhsIdx i q 0).val = (i 0).val := by
  unfold DotDims.rhsIdx
  rw [dif_pos (show (0 : Fin S16x16x256.rank) ∈ dot_S16x16x256_S16x16x256_S16x256x256_1_1_2_2_0_0.rhsBatch by decide)]
  rfl
theorem heads_rhs1 (i : S16x256x256.Idx) (q : dot_S16x16x256_S16x16x256_S16x256x256_1_1_2_2_0_0.contr.Idx) :
    (dot_S16x16x256_S16x16x256_S16x256x256_1_1_2_2_0_0.rhsIdx i q 1).val = (q ⟨0, by decide⟩).val :=
  dot_S16x16x256_S16x16x256_S16x256x256_1_1_2_2_0_0.rhsIdx_val_of_single rfl i q
theorem heads_rhs2 (i : S16x256x256.Idx) (q : dot_S16x16x256_S16x16x256_S16x256x256_1_1_2_2_0_0.contr.Idx) :
    (dot_S16x16x256_S16x16x256_S16x256x256_1_1_2_2_0_0.rhsIdx i q 2).val = (i 2).val := by
  unfold DotDims.rhsIdx
  rw [dif_neg (show ¬(2 : Fin S16x16x256.rank) ∈ dot_S16x16x256_S16x16x256_S16x256x256_1_1_2_2_0_0.rhsBatch by decide),
    dif_pos (show (2 : Fin S16x16x256.rank) ∈ dot_S16x16x256_S16x16x256_S16x256x256_1_1_2_2_0_0.rhsNonContracting by decide)]
  rfl

/-- The batched product into the zero array, at (r, d, p): the sum over the heads h of u[r, h, d] · v[r, h, p]. -/
theorem heads_matmul_at (u v : FVec Ideal S16x16x256 .bf16) (r : Fin 16) (d p : Fin 256) :
    matmul dot_S16x16x256_S16x16x256_S16x256x256_1_1_2_2_0_0 none u v (constant S16x256x256 .f32 0x00000000#32) (ix3 r d p)
      = ∑ h : Fin 16, u (ix3 r h d) * v (ix3 r h p) := by
  simp only [matmul]
  rw [Ideal.matmul_constant_zero_apply, ← Equiv.sum_comp (ValueIdx.contrEquiv1 dot_S16x16x256_S16x16x256_S16x256x256_1_1_2_2_0_0 16 rfl rfl).symm]
  refine Finset.sum_congr rfl fun k _ => ?_
  have hk := ValueIdx.contrEquiv1_symm_val dot_S16x16x256_S16x16x256_S16x256x256_1_1_2_2_0_0 16 rfl rfl k
  have el : dot_S16x16x256_S16x16x256_S16x256x256_1_1_2_2_0_0.lhsIdx (ix3 r d p) ((ValueIdx.contrEquiv1 dot_S16x16x256_S16x16x256_S16x256x256_1_1_2_2_0_0 16 rfl rfl).symm k) = ix3 r k d := funext fun c => Fin.ext (by
    match c with
    | ⟨0, _⟩ => exact heads_lhs0 _ _
    | ⟨1, _⟩ => exact (heads_lhs1 _ _).trans hk
    | ⟨2, _⟩ => exact heads_lhs2 _ _)
  have er : dot_S16x16x256_S16x16x256_S16x256x256_1_1_2_2_0_0.rhsIdx (ix3 r d p) ((ValueIdx.contrEquiv1 dot_S16x16x256_S16x16x256_S16x256x256_1_1_2_2_0_0 16 rfl rfl).symm k) = ix3 r k p := funext fun c => Fin.ext (by
    match c with
    | ⟨0, _⟩ => exact heads_rhs0 _ _
    | ⟨1, _⟩ => exact (heads_rhs1 _ _).trans hk
    | ⟨2, _⟩ => exact heads_rhs2 _ _)
  rw [el, er]

theorem pay1_at (u v : FVec Ideal S16x16x256 .bf16) (r : Fin 16) (d p : Fin 256) :
    k0_pay1 (F := Ideal) u v (ix3 r d p)
      = Ideal.tanh ((∑ h : Fin 16, u (ix3 r h d) * v (ix3 r h p)) * ((1 / 16 : ℝ) : EReal)) := by
  show Ideal.tanh (matmul dot_S16x16x256_S16x16x256_S16x256x256_1_1_2_2_0_0 none u v (constant S16x256x256 .f32 0x00000000#32) (ix3 r d p)
      * Ideal.ofBits .f32 0x3D800000#32) = _
  rw [heads_matmul_at, ofBits_sixteenth]

/-! ## The two sums of the interaction, over one axis each -/

/-- The sum over the last axis, at (r, d): over p of the entry at (r, d, p). -/
theorem sum_last_at (y : FVec Ideal S16x256x256 .f32) (r : Fin 16) (d : Fin 256) :
    multiReduction .add [2] S16x256 y 0x00000000#32 reduces_S16x256x256_S16x256 (.inl rfl) rfl (ix2 r d)
      = ∑ p : Fin 256, y (ix3 r d p) := by
  refine (Ideal.multiReduction_add_single y _ reduces_S16x256x256_S16x256 _ _ (ix2 r d)).trans ?_
  refine Finset.sum_congr rfl fun k _ => congrArg y (funext fun c => Fin.ext ?_)
  match c with | ⟨0, _⟩ => rfl | ⟨1, _⟩ => rfl | ⟨2, _⟩ => rfl

/-- The sum over the middle axis, at (r, p): over d of the entry at (r, d, p). -/
theorem sum_mid_at (y : FVec Ideal S16x256x256 .f32) (r : Fin 16) (p : Fin 256) :
    multiReduction .add [1] S16x256 y 0x00000000#32 reduces_S16x256x256_S16x256_2 (.inl rfl) rfl (ix2 r p)
      = ∑ d : Fin 256, y (ix3 r d p) := by
  refine (Ideal.multiReduction_add_single y _ reduces_S16x256x256_S16x256_2 _ _ (ix2 r p)).trans ?_
  refine Finset.sum_congr rfl fun k _ => congrArg y (funext fun c => Fin.ext ?_)
  match c with | ⟨0, _⟩ => rfl | ⟨1, _⟩ => rfl | ⟨2, _⟩ => rfl

theorem pay2_at (u v : FVec Ideal S16x16x256 .bf16) (r : Fin 16) (d : Fin 256) :
    k0_pay2 (F := Ideal) u v (ix2 r d) = Ideal.tanh (∑ p : Fin 256, k0_pay1 (F := Ideal) u v (ix3 r d p)) := by
  have e : k0_pay2 (F := Ideal) u v
      = tanh (multiReduction .add [2] S16x256 (k0_pay1 (F := Ideal) u v) 0x00000000#32 reduces_S16x256x256_S16x256 (.inl rfl) rfl) :=
    shapeCast_self _ _
  rw [e]
  exact congrArg Ideal.tanh (sum_last_at (k0_pay1 (F := Ideal) u v) r d)

theorem pay3_at (u v : FVec Ideal S16x16x256 .bf16) (r : Fin 16) (p : Fin 256) :
    k0_pay3 (F := Ideal) u v (ix2 r p) = Ideal.tanh (∑ d : Fin 256, k0_pay1 (F := Ideal) u v (ix3 r d p)) := by
  have e : k0_pay3 (F := Ideal) u v
      = tanh (multiReduction .add [1] S16x256 (k0_pay1 (F := Ideal) u v) 0x00000000#32 reduces_S16x256x256_S16x256_2 (.inl rfl) rfl) :=
    shapeCast_self _ _
  rw [e]
  exact congrArg Ideal.tanh (sum_mid_at (k0_pay1 (F := Ideal) u v) r p)

/-! ## The two results -/

theorem pay4_at (x z : FVec Ideal S128x256 .f32) (i : S128x256.Idx) : k0_pay4 (F := Ideal) x z i = x i * z i := rfl

theorem pay5_at (x z : FVec Ideal S128x256 .f32) (i : S128x256.Idx) : k0_pay5 (F := Ideal) x z i = x i * z i := rfl

end Cert.KPay

end
-- ==== Proof.LoopPieces.lean ====
/-
  The counted loop of the kernel body, read as values on the extended reals.

  Before the loop the body has stored the two projections of its 128 rows, after their positive part, in two scratch
  buffers D and P of shape [128, 16, 256] (row, head, feature). Trip k of the loop loads rows 16 k … 16 k + 15 of both,
  contracts the sixteen heads, scales by 1/16 and takes tanh — a [16, 256, 256] map — and stores, at rows 16 k … 16 k + 15
  of two further scratch buffers, tanh of that map summed over its last axis and tanh of it summed over its middle axis.
  The eight trips' stores tile those buffers, so after the loop each is ONE function of D and P, row by row:
      CS D P r d = tanh (∑ₚ tanh ((∑ₕ D[r, h, d] · P[r, h, p]) · 1/16)),
      PS D P r p = tanh (∑_d tanh ((∑ₕ D[r, h, d] · P[r, h, p]) · 1/16)).
  The trip's definition is opened once (`trip_pieces`: each list is one store, at the trip's rows, of the payload of the
  trip's two loads); the rest is an induction over the trips and the fact that pieces which all restrict one function,
  and cover, read back as that function.
-/
import proofs.«156675_j88983132438605_2_alg».proof.Proof.Spec
import proofs.«156675_j88983132438605_2_alg».proof.Proof.KernelPayloads
import proofs.«156675_j88983132438605_2_alg».proof.Proof.Gen.KernelIdeal.Loops
import Idealize.ShloMosaic.Lib.Pipeline.Value
import Idealize.ShloMosaic.Lib.Pipeline.FrameBody
import Idealize.ShloMosaic.Lib.Ring
import Idealize.ShloMosaic.Lib.Tactic
import Idealize.ShloMosaic.Lib.ValueIdx

set_option maxRecDepth 16384

noncomputable section

open scoped BigOperators

namespace Cert.KVal

open Cert.KernelIdeal Cert.KernelIdeal.Gen Idealize.ShloMosaic Idealize.ShloMosaic.TcCoe Idealize.ShloMosaic.Tactic
open Idealize.SL.Sem Idealize.ShloMosaic.ValueIdx

/-- Row `r`, feature `d` of the first summed scratch buffer, from the two projection buffers. -/
def CS (D P : S128x16x256.Idx → EReal) (r : Fin 128) (d : Fin 256) : EReal :=
  Ideal.tanh (∑ p : Fin 256, Ideal.tanh ((∑ h : Fin 16, D (ix3 r h d) * P (ix3 r h p)) * ((1 / 16 : ℝ) : EReal)))

/-- Row `r`, feature `p` of the second summed scratch buffer. -/
def PS (D P : S128x16x256.Idx → EReal) (r : Fin 128) (p : Fin 256) : EReal :=
  Ideal.tanh (∑ d : Fin 256, Ideal.tanh ((∑ h : Fin 16, D (ix3 r h d) * P (ix3 r h p)) * ((1 / 16 : ℝ) : EReal)))

theorem trips_le (k : Fin k0_t1_loop.trips) : k.val < 8 := Nat.lt_of_lt_of_le k.isLt k0_t1_abs.2.1

/-- What trip `k` loads from a projection buffer, at local row `r`: the buffer's row `16 k + r`. -/
theorem slice_at (v : View sig .tc .vmem S128x16x256 .bf16) (X : BufTy.Contents (Elt Ideal) v.ty)
    (k : Fin k0_t1_loop.trips) (r : Fin 16) (h : Fin 16) (d : Fin 256) (hr : 16 * k.val + r.val < 128) :
    View.readAt (Elt Ideal) v (Rect.unit (s := S128x16x256) (k0_off1 k) S16x16x256.size (k0_off1_inb k)).toLoadRect X (ix3 r h d)
      = v.read (Elt Ideal) X (ix3 ⟨16 * k.val + r.val, hr⟩ h d) := by
  rw [View.readAt_eq_ld]
  show v.read (Elt Ideal) X ((Rect.unit (s := S128x16x256) (k0_off1 k) S16x16x256.size (k0_off1_inb k)).idx (ix3 r h d)) = _
  congr 1
  funext a
  apply Fin.ext
  have e := k0_off1_eq k
  match a with
  | ⟨0, _⟩ => show k0_off1 k 0 + 1 * r.val = 16 * k.val + r.val; rw [e]; show 16 * k.val + 1 * r.val = _; omega
  | ⟨1, _⟩ => show k0_off1 k 1 + 1 * h.val = h.val; rw [e]; show 0 + 1 * h.val = _; omega
  | ⟨2, _⟩ => show k0_off1 k 2 + 1 * d.val = d.val; rw [e]; show 0 + 1 * d.val = _; omega

section Trip

variable (v9 v10 : View sig .tc .vmem S128x16x256 .bf16) (X9 : BufTy.Contents (Elt Ideal) v9.ty)
  (X10 : BufTy.Contents (Elt Ideal) v10.ty) (k : Fin k0_t1_loop.trips)

/-- Trip `k`'s first payload at local `(r, d)` is the closed form at row `16 k + r`. -/
theorem trip_value1 (r : Fin 16) (d : Fin 256) (hr : 16 * k.val + r.val < 128) :
    k0_pay2 (F := Ideal)
        (View.readAt (Elt Ideal) v9 (Rect.unit (s := S128x16x256) (k0_off1 k) S16x16x256.size (k0_off1_inb k)).toLoadRect X9)
        (View.readAt (Elt Ideal) v10 (Rect.unit (s := S128x16x256) (k0_off1 k) S16x16x256.size (k0_off1_inb k)).toLoadRect X10)
        (ix2 r d)
      = CS (v9.read (Elt Ideal) X9) (v10.read (Elt Ideal) X10) ⟨16 * k.val + r.val, hr⟩ d := by
  rw [KPay.pay2_at]
  unfold CS
  refine congrArg Ideal.tanh (Finset.sum_congr rfl fun p _ => ?_)
  rw [KPay.pay1_at]
  refine congrArg Ideal.tanh (congrArg (· * _) (Finset.sum_congr rfl fun h _ => ?_))
  rw [slice_at v9 X9 k r h d hr, slice_at v10 X10 k r h p hr]

/-- Trip `k`'s second payload at local `(r, p)`. -/
theorem trip_value2 (r : Fin 16) (p : Fin 256) (hr : 16 * k.val + r.val < 128) :
    k0_pay3 (F := Ideal)
        (View.readAt (Elt Ideal) v9 (Rect.unit (s := S128x16x256) (k0_off1 k) S16x16x256.size (k0_off1_inb k)).toLoadRect X9)
        (View.readAt (Elt Ideal) v10 (Rect.unit (s := S128x16x256) (k0_off1 k) S16x16x256.size (k0_off1_inb k)).toLoadRect X10)
        (ix2 r p)
      = PS (v9.read (Elt Ideal) X9) (v10.read (Elt Ideal) X10) ⟨16 * k.val + r.val, hr⟩ p := by
  rw [KPay.pay3_at]
  unfold PS
  refine congrArg Ideal.tanh (Finset.sum_congr rfl fun d _ => ?_)
  rw [KPay.pay1_at]
  refine congrArg Ideal.tanh (congrArg (· * _) (Finset.sum_congr rfl fun h _ => ?_))
  rw [slice_at v9 X9 k r h d hr, slice_at v10 X10 k r h p hr]

end Trip

section Loop

variable (𝒱 : Variants) (bd : Option 𝒱.V) (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S256x4096 .bf16) (harg3 : arg3.IsWhole) (arg4 : Memref sig .tc .vmem S4096 .f32) (harg4 : arg4.IsWhole) (arg5 : Memref sig .tc .vmem S256x4096 .bf16) (harg5 : arg5.IsWhole) (arg6 : Memref sig .tc .vmem S4096 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x16x256 .bf16) (harg9 : arg9.IsWhole) (arg10 : Memref sig .tc .vmem S128x16x256 .bf16) (harg10 : arg10.IsWhole) (arg11 : Memref sig .tc .vmem S128x256 .f32) (harg11 : arg11.IsWhole) (arg12 : Memref sig .tc .vmem S128x256 .f32) (harg12 : arg12.IsWhole)
  (X9 : BufTy.Contents (Elt Ideal) arg9.view.ty) (X10 : BufTy.Contents (Elt Ideal) arg10.view.ty)

/-- ONE TRIP, opened: each of its two piece lists is one store at rows `16 k … 16 k + 15` of the payload of the trip's
    two loads. -/
theorem trip_pieces (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 k
      = ([(⟨Rect.unit (s := S128x256) (k0_off2 k) S16x256.size (k0_off2_inb k),
            k0_pay2 (F := Ideal)
              (View.readAt (Elt Ideal) arg9.view (Rect.unit (s := S128x16x256) (k0_off1 k) S16x16x256.size (k0_off1_inb k)).toLoadRect X9)
              (View.readAt (Elt Ideal) arg10.view (Rect.unit (s := S128x16x256) (k0_off1 k) S16x16x256.size (k0_off1_inb k)).toLoadRect X10)⟩ :
            View.Piece (Elt Ideal) S128x256 .f32)],
         [(⟨Rect.unit (s := S128x256) (k0_off2 k) S16x256.size (k0_off2_inb k),
            k0_pay3 (F := Ideal)
              (View.readAt (Elt Ideal) arg9.view (Rect.unit (s := S128x16x256) (k0_off1 k) S16x16x256.size (k0_off1_inb k)).toLoadRect X9)
              (View.readAt (Elt Ideal) arg10.view (Rect.unit (s := S128x16x256) (k0_off1 k) S16x16x256.size (k0_off1_inb k)).toLoadRect X10)⟩ :
            View.Piece (Elt Ideal) S128x256 .f32)]) := by
  unfold tripL_k0_t1 trip_k0_t1
  dsimp only

/-- The first summed scratch buffer as one function of the projection buffers' contents. -/
abbrev G1 : S128x256.Idx → EReal :=
  fun y => CS (arg9.view.read (Elt Ideal) X9) (arg10.view.read (Elt Ideal) X10) (y 0) (y 1)

/-- The second. -/
abbrev G2 : S128x256.Idx → EReal :=
  fun y => PS (arg9.view.read (Elt Ideal) X9) (arg10.view.read (Elt Ideal) X10) (y 0) (y 1)

/-- Where trip `k`'s store puts its local `(r, d)`: row `16 k + r`, column `d`. -/
theorem store_at (k : Fin k0_t1_loop.trips) (r : Fin 16) (d : Fin 256) (hr : 16 * k.val + r.val < 128) :
    (Rect.unit (s := S128x256) (k0_off2 k) S16x256.size (k0_off2_inb k)).emb (ix2 r d) = ix2 ⟨16 * k.val + r.val, hr⟩ d := by
  funext a
  apply Fin.ext
  have e := k0_off2_eq k
  match a with
  | ⟨0, _⟩ => show k0_off2 k 0 + 1 * r.val = 16 * k.val + r.val; rw [e]; show 16 * k.val + 1 * r.val = _; omega
  | ⟨1, _⟩ => show k0_off2 k 1 + 1 * d.val = d.val; rw [e]; show 0 + 1 * d.val = _; omega

/-- Each piece of trip `k` restricts the one function. -/
theorem trip_mem1 (k : Fin k0_t1_loop.trips) (p : View.Piece (Elt Ideal) S128x256 .f32)
    (hp : p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 k).1) (x : p.1.shape.Idx) :
    p.2 x = G1 arg9 arg10 X9 X10 (p.1.emb x) := by
  rw [trip_pieces] at hp
  dsimp only at hp
  rw [List.mem_singleton] at hp
  subst hp
  obtain ⟨r, d, rfl⟩ : ∃ (r : Fin 16) (d : Fin 256), x = ix2 r d := ⟨x 0, x 1, eq_ix2 x⟩
  have hk := trips_le k
  have hr : 16 * k.val + r.val < 128 := by have := r.isLt; omega
  show k0_pay2 (F := Ideal) _ _ (ix2 r d) = G1 arg9 arg10 X9 X10 ((Rect.unit (s := S128x256) (k0_off2 k) S16x256.size (k0_off2_inb k)).emb (ix2 r d))
  rw [store_at k r d hr, trip_value1 arg9.view arg10.view X9 X10 k r d hr]

theorem trip_mem2 (k : Fin k0_t1_loop.trips) (p : View.Piece (Elt Ideal) S128x256 .f32)
    (hp : p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 k).2) (x : p.1.shape.Idx) :
    p.2 x = G2 arg9 arg10 X9 X10 (p.1.emb x) := by
  rw [trip_pieces] at hp
  dsimp only at hp
  rw [List.mem_singleton] at hp
  subst hp
  obtain ⟨r, d, rfl⟩ : ∃ (r : Fin 16) (d : Fin 256), x = ix2 r d := ⟨x 0, x 1, eq_ix2 x⟩
  have hk := trips_le k
  have hr : 16 * k.val + r.val < 128 := by have := r.isLt; omega
  show k0_pay3 (F := Ideal) _ _ (ix2 r d) = G2 arg9 arg10 X9 X10 ((Rect.unit (s := S128x256) (k0_off2 k) S16x256.size (k0_off2_inb k)).emb (ix2 r d))
  rw [store_at k r d hr, trip_value2 arg9.view arg10.view X9 X10 k r d hr]

/-- So do all the pieces of the trips before `n`: induction over the trips. -/
theorem pb_mem1 : ∀ (n : ℕ), n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).1,
    ∀ x : p.1.shape.Idx, p.2 x = G1 arg9 arg10 X9 X10 (p.1.emb x)
  | 0, _, p, hp, _ => absurd hp List.not_mem_nil
  | n + 1, hn, p, hp, x => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩
    have e1 : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (n + 1)).1
        = (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).1 := congrArg Prod.fst e
    have hp' : p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩).1 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).1 := by
      rw [e1] at hp; exact hp
    rcases List.mem_append.mp hp' with h | h
    · exact trip_mem1 𝒱 bd c i arg1 harg1 arg2 harg2 arg3 harg3 arg4 harg4 arg5 harg5 arg6 harg6 arg7 harg7 arg8 harg8 arg9 harg9 arg10 harg10 arg11 harg11 arg12 harg12 X9 X10 ⟨n, hn⟩ p h x
    · exact pb_mem1 n (Nat.le_of_lt hn) p h x

theorem pb_mem2 : ∀ (n : ℕ), n ≤ k0_t1_loop.trips → ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).2,
    ∀ x : p.1.shape.Idx, p.2 x = G2 arg9 arg10 X9 X10 (p.1.emb x)
  | 0, _, p, hp, _ => absurd hp List.not_mem_nil
  | n + 1, hn, p, hp, x => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩
    have e2 : (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (n + 1)).2
        = (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩).2 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).2 := congrArg Prod.snd e
    have hp' : p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 ⟨n, hn⟩).2 ++ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 n).2 := by
      rw [e2] at hp; exact hp
    rcases List.mem_append.mp hp' with h | h
    · exact trip_mem2 𝒱 bd c i arg1 harg1 arg2 harg2 arg3 harg3 arg4 harg4 arg5 harg5 arg6 harg6 arg7 harg7 arg8 harg8 arg9 harg9 arg10 harg10 arg11 harg11 arg12 harg12 X9 X10 ⟨n, hn⟩ p h x
    · exact pb_mem2 n (Nat.le_of_lt hn) p h x

/-- AFTER THE LOOP the first summed scratch buffer, read back, is the one function: its pieces all restrict it and tile
    the buffer in blocks of 16 rows. -/
theorem canon1 : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).1 = G1 arg9 arg10 X9 X10 := by
  funext y
  have hc : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).1, y ∈ p.1.set :=
    View.cover_of_tiledL (s := S128x256) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).1 S16x256.size (by sl_kernel_rfl) y
  exact View.canon_apply_of_pieces (G1 arg9 arg10 X9 X10) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).1
    (pb_mem1 𝒱 bd c i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st) (Nat.le_refl _)) y hc

theorem canon2 : View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).2 = G2 arg9 arg10 X9 X10 := by
  funext y
  have hc : ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).2, y ∈ p.1.set :=
    View.cover_of_tiledL (s := S128x256) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).2 S16x256.size (by sl_kernel_rfl) y
  exact View.canon_apply_of_pieces (G2 arg9 arg10 X9 X10) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st)).2
    (pb_mem2 𝒱 bd c i arg1 harg1 arg2 harg2 arg3 harg3 arg4 harg4 arg5 harg5 arg6 harg6 arg7 harg7 arg8 harg8 arg9 harg9 arg10 harg10 arg11 harg11 arg12 harg12 X9 X10 (Scf.trips k0_t1_loop.lb k0_t1_loop.ub k0_t1_loop.st) (Nat.le_refl _)) y hc

end Loop

end Cert.KVal

end
-- ==== Proof.BodyValue.lean ====
/-
  One run of the kernel body, as values: from its six input blocks — a drug block x₀ and a protein block x₁ of 128 rows,
  the two weight matrices x₂, x₄ and the two bias vectors x₃, x₅ — the body leaves in its first output block
      x₀[r, d] · CS D P r d        and in its second        x₁[r, p] · PS D P r p,
  where D and P are the two projection buffers it stored first (the positive parts of x₀ · x₂ + x₃ and of x₁ · x₄ + x₅,
  recast to [128, 16, 256]) and CS, PS are what the counted loop leaves in the two summed scratch buffers.
  Each output block is one covering store; what it multiplies is read back whole from a scratch buffer after the loop,
  where it is the canon of the loop's pieces, which is the one function CS (or PS) of the buffers the loop read; those
  in turn hold the single store made into each before the loop.
-/
import proofs.«156675_j88983132438605_2_alg».proof.Proof.LoopPieces
import proofs.«156675_j88983132438605_2_alg».proof.Proof.KernelIdealFrame

set_option maxRecDepth 16384

noncomputable section

open scoped BigOperators

namespace Cert.KVal

open Cert.KernelIdeal Cert.KernelIdeal.Gen Cert.KernelIdeal.GenP Idealize.ShloMosaic Idealize.ShloMosaic.TcCoe Idealize.ShloMosaic.Tactic
open Idealize.SL.Sem Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S256x4096 .bf16) (harg3 : arg3.IsWhole) (arg4 : Memref sig .tc .vmem S4096 .f32) (harg4 : arg4.IsWhole) (arg5 : Memref sig .tc .vmem S256x4096 .bf16) (harg5 : arg5.IsWhole) (arg6 : Memref sig .tc .vmem S4096 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x16x256 .bf16) (harg9 : arg9.IsWhole) (arg10 : Memref sig .tc .vmem S128x16x256 .bf16) (harg10 : arg10.IsWhole) (arg11 : Memref sig .tc .vmem S128x256 .f32) (harg11 : arg11.IsWhole) (arg12 : Memref sig .tc .vmem S128x256 .f32) (harg12 : arg12.IsWhole)
  (x0 x1 : Vec Ideal S128x256 .f32) (x2 : Vec Ideal S256x4096 .bf16) (x3 : Vec Ideal S4096 .f32) (x4 : Vec Ideal S256x4096 .bf16) (x5 : Vec Ideal S4096 .f32)

/-- The first output block the body leaves. -/
theorem out6_eq :
    out0_A_6 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
      = fun y => x0 y * CS (k0_pay6 (F := Ideal) x0 x2 x3) (k0_pay7 (F := Ideal) x1 x4 x5) (y 0) (y 1) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  rw [View.canon_unit_zero hz2]
  rw [canon1]
  simp only [View.readAt_eq_ld, harg1.read_unread, harg2.read_unread, harg3.read_unread, harg4.read_unread,
    harg5.read_unread, harg6.read_unread, View.ld_unit_zero (S := S128x256) hz2, View.ld_unit_zero (S := S256x4096) hz2,
    View.ld_unit_zero (S := S4096) hz1]
  funext y
  show x0 y * CS (arg9.view.read (Elt Ideal) _) (arg10.view.read (Elt Ideal) _) (y 0) (y 1) = _
  rw [View.read_writes_junk_eq_canon, View.read_writes_junk_eq_canon, View.canon_unit_zero hz3, View.canon_unit_zero hz3]

/-- The second output block the body leaves. -/
theorem out7_eq :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5
      = fun y => x1 y * PS (k0_pay6 (F := Ideal) x0 x2 x3) (k0_pay7 (F := Ideal) x1 x4 x5) (y 0) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5)]
  unfold kernelRun0_A
  dsimp only
  rw [View.canon_unit_zero hz2]
  rw [canon2]
  simp only [View.readAt_eq_ld, harg1.read_unread, harg2.read_unread, harg3.read_unread, harg4.read_unread,
    harg5.read_unread, harg6.read_unread, View.ld_unit_zero (S := S128x256) hz2, View.ld_unit_zero (S := S256x4096) hz2,
    View.ld_unit_zero (S := S4096) hz1]
  funext y
  show x1 y * PS (arg9.view.read (Elt Ideal) _) (arg10.view.read (Elt Ideal) _) (y 0) (y 1) = _
  rw [View.read_writes_junk_eq_canon, View.read_writes_junk_eq_canon, View.canon_unit_zero hz3, View.canon_unit_zero hz3]

end Cert.KVal

end
-- ==== Proof.HostPrefix.lean ====
/-
  What the region finds in its input arrays, on the extended reals, read at an index.

  Before the region the host rearranges the first projection's weights and bias from head-minor to head-major
  columns. The [256, 4096] weight array is seen as [256, 256, 16], its last two axes are exchanged, and the
  [256, 16, 256] result is seen as [256, 4096] again: position (k, 256 h + d) of the result is (k, h, d) of the
  exchanged array, which is (k, d, h) of the first view, which is position (k, 16 d + h) of the weights — each
  view keeps the row-major order. The bias goes the same way without the leading axis: [4096] seen as [256, 16],
  transposed to [16, 256], seen as [4096]; position 256 h + d comes from position 16 d + h. The narrowing of the
  two weight arrays changes no value. So the region finds, in the rearranged weights at (k, 256 h + d), the
  weights at (k, 16 d + h); in the rearranged bias at 256 h + d, the bias at 16 d + h; and the second
  projection's weights unchanged.

  The six input windows' blocks at grid point t: the two activations' block is rows 128 t … 128 t + 127 (block
  coordinate (t, 0), block size [128, 256]: entry (r, k) of the block is entry (128 t + r, k) of the array); the
  other four windows' block is the whole array at every point (block coordinate 0, block size the array's).
-/
import proofs.«156675_j88983132438605_2_alg».proof.Proof.Spec
import proofs.«156675_j88983132438605_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KHost

open Cert.KernelIdeal Cert.KernelIdeal.Gen Idealize.ShloMosaic Idealize.ShloMosaic.TcCoe Idealize.SL.Sem
  Idealize.ShloMosaic.ValueIdx Cert.Spec

/-! ## The layout steps, over any array -/

section Layout
variable {α : Type}

/-- [256, 16, 256] seen as [256, 4096]: position (k, 256 h + d) is (k, h, d). -/
theorem join_hd (Y : S256x16x256.Idx → α) (k : Fin 256) (h : Fin 16) (d : Fin 256) :
    shapeCast S256x4096 Y shapeCasts_S256x16x256_S256x4096 (ix2 k (colP h d)) = Y (ix3 k h d) :=
  shapeCast_apply Y shapeCasts_S256x16x256_S256x4096 (ix2 k (colP h d)) (ix3 k h d) (by
    rewrite [Shape.rowMajor_val_two, Shape.rowMajor_val_three]
    have hk := k.isLt; have hh := h.isLt; have hd := d.isLt
    show (k.val * 16 + h.val) * 256 + d.val = k.val * 4096 + (256 * h.val + d.val)
    omega)

/-- [256, 4096] seen as [256, 256, 16]: position (k, d, h) is (k, 16 d + h). -/
theorem split_dh (W : S256x4096.Idx → α) (k : Fin 256) (d : Fin 256) (h : Fin 16) :
    shapeCast S256x256x16 W shapeCasts_S256x4096_S256x256x16 (ix3 k d h) = W (ix2 k (colD d h)) :=
  shapeCast_apply W shapeCasts_S256x4096_S256x256x16 (ix3 k d h) (ix2 k (colD d h)) (by
    rewrite [Shape.rowMajor_val_two, Shape.rowMajor_val_three]
    have hk := k.isLt; have hh := h.isLt; have hd := d.isLt
    show k.val * 4096 + (16 * d.val + h.val) = (k.val * 256 + d.val) * 16 + h.val
    omega)

/-- The weights' three steps together: the rearranged array at (k, 256 h + d) is the array at (k, 16 d + h). -/
theorem rearrange_w (W : S256x4096.Idx → α) (k : Fin 256) (h : Fin 16) (d : Fin 256) :
    shapeCast S256x4096
        (transpose S256x16x256 [0, 2, 1] (shapeCast S256x256x16 W shapeCasts_S256x4096_S256x256x16)
          transposes_S256x256x16_S256x16x256_0_2_1)
        shapeCasts_S256x16x256_S256x4096 (ix2 k (colP h d))
      = W (ix2 k (colD d h)) :=
  (join_hd _ k h d).trans
    ((transpose_ix3_021_apply _ transposes_S256x256x16_S256x16x256_0_2_1 k h d).trans (split_dh W k d h))

/-- [16, 256] seen as [4096]: position 256 h + d is (h, d). -/
theorem join_hd1 (Y : S16x256.Idx → α) (h : Fin 16) (d : Fin 256) :
    shapeCast S4096 Y shapeCasts_S16x256_S4096 (ix1 (colP h d)) = Y (ix2 h d) :=
  shapeCast_apply Y shapeCasts_S16x256_S4096 (ix1 (colP h d)) (ix2 h d) (by
    rewrite [Shape.rowMajor_val_two, Shape.rowMajor_val_one]
    have hh := h.isLt; have hd := d.isLt
    show h.val * 256 + d.val = 256 * h.val + d.val
    omega)

/-- [4096] seen as [256, 16]: position (d, h) is 16 d + h. -/
theorem split_dh1 (B : S4096.Idx → α) (d : Fin 256) (h : Fin 16) :
    shapeCast S256x16 B shapeCasts_S4096_S256x16 (ix2 d h) = B (ix1 (colD d h)) :=
  shapeCast_apply B shapeCasts_S4096_S256x16 (ix2 d h) (ix1 (colD d h)) (by
    rewrite [Shape.rowMajor_val_two, Shape.rowMajor_val_one]
    have hh := h.isLt; have hd := d.isLt
    show 16 * d.val + h.val = d.val * 16 + h.val
    omega)

/-- The bias's three steps together: the rearranged vector at 256 h + d is the vector at 16 d + h. -/
theorem rearrange_b (B : S4096.Idx → α) (h : Fin 16) (d : Fin 256) :
    shapeCast S4096
        (transpose S16x256 [1, 0] (shapeCast S256x16 B shapeCasts_S4096_S256x16) transposes_S256x16_S16x256_1_0)
        shapeCasts_S16x256_S4096 (ix1 (colP h d))
      = B (ix1 (colD d h)) :=
  (join_hd1 _ h d).trans
    ((transpose_ix2_apply _ transposes_S256x16_S16x256_1_0 h d).trans (split_dh1 B d h))

end Layout

/-! ## The arrays the region finds -/

variable (m : (ℓ : Loc nD τ sig) → Buf (Elt Ideal) ℓ) (c : Dev nD)

/-- The rearranged weights as the host's four operations on the launched weights. -/
theorem V_wd_eq :
    (V (F := Ideal) m c main_call0_v3 : S256x4096.Idx → EReal)
      = (truncf .bf16
          (shapeCast S256x4096
            (transpose S256x16x256 [0, 2, 1]
              (shapeCast S256x256x16 (m ((c : Thread nD τ).loc main_arg2) : FVec Ideal S256x4096 .f32)
                shapeCasts_S256x4096_S256x256x16)
              transposes_S256x256x16_S256x16x256_0_2_1)
            shapeCasts_S256x16x256_S256x4096 : FVec Ideal S256x4096 .f32)
          bitsLt_bf16_f32 : FVec Ideal S256x4096 .bf16) := by
  dsimp only [V, hostOps0]; after_results; rfl

theorem V_wd (k : Fin 256) (h : Fin 16) (d : Fin 256) :
    (V (F := Ideal) m c main_call0_v3 : S256x4096.Idx → EReal) (ix2 k (colP h d))
      = (m ((c : Thread nD τ).loc main_arg2) : S256x4096.Idx → EReal) (ix2 k (colD d h)) := by
  rw [V_wd_eq]
  exact rearrange_w (m ((c : Thread nD τ).loc main_arg2) : S256x4096.Idx → EReal) k h d

/-- The rearranged bias as the host's three operations on the launched bias. -/
theorem V_bd_eq :
    (V (F := Ideal) m c main_call0_v6 : S4096.Idx → EReal)
      = shapeCast S4096
          (transpose S16x256 [1, 0]
            (shapeCast S256x16 (m ((c : Thread nD τ).loc main_arg3) : S4096.Idx → EReal) shapeCasts_S4096_S256x16)
            transposes_S256x16_S16x256_1_0)
          shapeCasts_S16x256_S4096 := by
  dsimp only [V, hostOps0]; after_results; rfl

theorem V_bd (h : Fin 16) (d : Fin 256) :
    (V (F := Ideal) m c main_call0_v6 : S4096.Idx → EReal) (ix1 (colP h d))
      = (m ((c : Thread nD τ).loc main_arg3) : S4096.Idx → EReal) (ix1 (colD d h)) := by
  rw [V_bd_eq]
  exact rearrange_b (m ((c : Thread nD τ).loc main_arg3) : S4096.Idx → EReal) h d

theorem V_wp :
    (V (F := Ideal) m c main_call0_v7 : S256x4096.Idx → EReal)
      = (m ((c : Thread nD τ).loc main_arg4) : S256x4096.Idx → EReal) := by
  have e : (V (F := Ideal) m c main_call0_v7 : S256x4096.Idx → EReal)
      = (truncf .bf16 (m ((c : Thread nD τ).loc main_arg4) : FVec Ideal S256x4096 .f32) bitsLt_bf16_f32
          : FVec Ideal S256x4096 .bf16) := by
    dsimp only [V, hostOps0]; after_results; rfl
  rw [e]; rfl

end Cert.KHost

end
-- ==== Proof.InputBlocks.lean ====
/-
  The six input windows' blocks at a grid point, on the extended reals, read off the arrays the region finds.

  A window's block at grid point t starts, on each axis, at the window's block coordinate times the block size;
  entry j of the block is the array's entry at (block coordinate × block size + j) on each axis. The two
  activation windows have block size [128, 256] and block coordinate (t, 0): entry (r, k) of the block is entry
  (128 t + r, k) of the array, which no host operation before the region writes. The two weight windows and the
  two bias windows have the array's own size as block size and block coordinate 0 at every point: the block is
  the whole array.
-/
import proofs.«156675_j88983132438605_2_alg».proof.Proof.Spec
import proofs.«156675_j88983132438605_2_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.StableHlo.Run

noncomputable section

namespace Cert.KHost

open Cert.KernelIdeal Cert.KernelIdeal.Gen Idealize.ShloMosaic Idealize.ShloMosaic.TcCoe Idealize.SL.Sem
  Idealize.ShloMosaic.ValueIdx Cert.Spec

/-! ## The windows' block coordinates over the grid -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 := by decide +kernel
theorem index4 : ∀ t : Fin grid0.N, win0_4.index t 0 = 0 ∧ win0_4.index t 1 = 0 := by decide +kernel
theorem index5 : ∀ t : Fin grid0.N, win0_5.index t 0 = 0 := by decide +kernel

variable (m : (ℓ : Loc nD τ sig) → Buf (Elt Ideal) ℓ) (c : Dev nD)

/-! ## The activations: rows 128 t … 128 t + 127 -/

theorem iblk0_at (t : Fin cfg0.N) (r : Fin 128) (k : Fin 256) (hr : 128 * t.val + r.val < 4096) :
    (iblk (F := Ideal) m c 0 t : S128x256.Idx → EReal) (ix2 r k)
      = (m ((c : Thread nD τ).loc main_arg0) : S4096x256.Idx → EReal) (ix2 ⟨128 * t.val + r.val, hr⟩ k) := by
  unfold iblk
  rw [View.read_apply]
  show (V (F := Ideal) m c main_arg0 : S4096x256.Idx → EReal) _ = _
  rw [V_main_arg0]
  refine congrArg (m ((c : Thread nD τ).loc main_arg0) : S4096x256.Idx → EReal) (funext fun a => Fin.ext ?_)
  match a with
  | ⟨0, _⟩ => show win0_0.index t 0 * 128 + 1 * r.val = 128 * t.val + r.val; rw [(index0 t).1]; omega
  | ⟨1, _⟩ => show win0_0.index t 1 * 256 + 1 * k.val = k.val; rw [(index0 t).2]; omega

theorem iblk1_at (t : Fin cfg0.N) (r : Fin 128) (k : Fin 256) (hr : 128 * t.val + r.val < 4096) :
    (iblk (F := Ideal) m c 1 t : S128x256.Idx → EReal) (ix2 r k)
      = (m ((c : Thread nD τ).loc main_arg1) : S4096x256.Idx → EReal) (ix2 ⟨128 * t.val + r.val, hr⟩ k) := by
  unfold iblk
  rw [View.read_apply]
  show (V (F := Ideal) m c main_arg1 : S4096x256.Idx → EReal) _ = _
  rw [V_main_arg1]
  refine congrArg (m ((c : Thread nD τ).loc main_arg1) : S4096x256.Idx → EReal) (funext fun a => Fin.ext ?_)
  match a with
  | ⟨0, _⟩ => show win0_1.index t 0 * 128 + 1 * r.val = 128 * t.val + r.val; rw [(index1 t).1]; omega
  | ⟨1, _⟩ => show win0_1.index t 1 * 256 + 1 * k.val = k.val; rw [(index1 t).2]; omega

/-! ## The weights and the biases: the whole array at every point -/

theorem iblk2_eq (t : Fin cfg0.N) :
    (iblk (F := Ideal) m c 2 t : S256x4096.Idx → EReal) = (V (F := Ideal) m c main_call0_v3 : S256x4096.Idx → EReal) := by
  funext j
  unfold iblk
  rw [View.read_apply]
  show (V (F := Ideal) m c main_call0_v3 : S256x4096.Idx → EReal) _ = _
  refine congrArg (V (F := Ideal) m c main_call0_v3 : S256x4096.Idx → EReal) (funext fun a => Fin.ext ?_)
  match a with
  | ⟨0, _⟩ => show win0_2.index t 0 * 256 + 1 * (j 0).val = (j 0).val; rw [(index2 t).1]; omega
  | ⟨1, _⟩ => show win0_2.index t 1 * 4096 + 1 * (j 1).val = (j 1).val; rw [(index2 t).2]; omega

theorem iblk3_eq (t : Fin cfg0.N) :
    (iblk (F := Ideal) m c 3 t : S4096.Idx → EReal) = (V (F := Ideal) m c main_call0_v6 : S4096.Idx → EReal) := by
  funext j
  unfold iblk
  rw [View.read_apply]
  show (V (F := Ideal) m c main_call0_v6 : S4096.Idx → EReal) _ = _
  refine congrArg (V (F := Ideal) m c main_call0_v6 : S4096.Idx → EReal) (funext fun a => Fin.ext ?_)
  match a with
  | ⟨0, _⟩ => show win0_3.index t 0 * 4096 + 1 * (j 0).val = (j 0).val; rw [index3 t]; omega

theorem iblk4_eq (t : Fin cfg0.N) :
    (iblk (F := Ideal) m c 4 t : S256x4096.Idx → EReal) = (V (F := Ideal) m c main_call0_v7 : S256x4096.Idx → EReal) := by
  funext j
  unfold iblk
  rw [View.read_apply]
  show (V (F := Ideal) m c main_call0_v7 : S256x4096.Idx → EReal) _ = _
  refine congrArg (V (F := Ideal) m c main_call0_v7 : S256x4096.Idx → EReal) (funext fun a => Fin.ext ?_)
  match a with
  | ⟨0, _⟩ => show win0_4.index t 0 * 256 + 1 * (j 0).val = (j 0).val; rw [(index4 t).1]; omega
  | ⟨1, _⟩ => show win0_4.index t 1 * 4096 + 1 * (j 1).val = (j 1).val; rw [(index4 t).2]; omega

theorem iblk5_eq (t : Fin cfg0.N) :
    (iblk (F := Ideal) m c 5 t : S4096.Idx → EReal) = (m ((c : Thread nD τ).loc main_arg5) : S4096.Idx → EReal) := by
  funext j
  unfold iblk
  rw [View.read_apply]
  show (V (F := Ideal) m c main_arg5 : S4096.Idx → EReal) _ = _
  rw [V_main_arg5]
  refine congrArg (m ((c : Thread nD τ).loc main_arg5) : S4096.Idx → EReal) (funext fun a => Fin.ext ?_)
  match a with
  | ⟨0, _⟩ => show win0_5.index t 0 * 4096 + 1 * (j 0).val = (j 0).val; rw [index5 t]; omega

end Cert.KHost

end
-- ==== Proof.BlockValue.lean ====
/-
  At grid point t the body's values, computed from its six input blocks, are the specification's entries at
  row 128 t + r.

  The first projection buffer at (r, h, d) is max (∑ₖ x[r, k] · w[k, 256 h + d] + β[256 h + d]) 0 over the
  blocks. The activation block's row r is the array's row 128 t + r; the weight block is the whole rearranged
  array, whose column 256 h + d is the launched weights' column 16 d + h, and likewise the bias: so the entry is
  the specification's projection at row 128 t + r and column 16 d + h — the kernel's head-major column is the
  specification's head-minor one, which is what the host's rearrangement is for. The second projection buffer
  reads unrearranged weights and bias: its entry at (r, h, p) is the specification's projection at column
  256 h + p. The two gated results then agree term by term: the leading factor is the activation at row
  128 t + r, and under tanh, the sum, tanh, the scaling and the sum over the heads, each product of two buffer
  entries is the product of the two projections.
-/
import proofs.«156675_j88983132438605_2_alg».proof.Proof.Spec
import proofs.«156675_j88983132438605_2_alg».proof.Proof.KernelPayloads
import proofs.«156675_j88983132438605_2_alg».proof.Proof.LoopPieces
import proofs.«156675_j88983132438605_2_alg».proof.Proof.HostPrefix
import proofs.«156675_j88983132438605_2_alg».proof.Proof.InputBlocks
import Idealize.ShloMosaic.Lib.ValueIdx

noncomputable section

open scoped BigOperators

namespace Cert.KBlock

open Cert.KernelIdeal Cert.KernelIdeal.Gen Idealize.ShloMosaic Idealize.ShloMosaic.TcCoe Idealize.SL.Sem
  Idealize.ShloMosaic.ValueIdx Cert.Spec Cert.KVal Cert.KHost

variable (m : (ℓ : Loc nD τ sig) → Buf (Elt Ideal) ℓ) (c : Dev nD) (t : Fin cfg0.N)

/-! ## The two projection buffers -/

theorem D_at (r : Fin 128) (h : Fin 16) (d : Fin 256) (hr : 128 * t.val + r.val < 4096) :
    k0_pay6 (F := Ideal) (iblk (F := Ideal) m c 0 t) (iblk (F := Ideal) m c 2 t) (iblk (F := Ideal) m c 3 t) (ix3 r h d)
      = proj (m ((c : Thread nD τ).loc main_arg0) : S4096x256.Idx → EReal) (m ((c : Thread nD τ).loc main_arg2) : S256x4096.Idx → EReal)
          (m ((c : Thread nD τ).loc main_arg3) : S4096.Idx → EReal) ⟨128 * t.val + r.val, hr⟩ (colD d h) := by
  refine (KPay.pay6_at (iblk (F := Ideal) m c 0 t) (iblk (F := Ideal) m c 2 t) (iblk (F := Ideal) m c 3 t) r h d).trans ?_
  have e0 : ∀ k : Fin 256, (iblk (F := Ideal) m c 0 t : S128x256.Idx → EReal) (ix2 r k)
      = (m ((c : Thread nD τ).loc main_arg0) : S4096x256.Idx → EReal) (ix2 ⟨128 * t.val + r.val, hr⟩ k) := fun k => iblk0_at m c t r k hr
  have e2 : ∀ k : Fin 256, (iblk (F := Ideal) m c 2 t : S256x4096.Idx → EReal) (ix2 k (colP h d))
      = (m ((c : Thread nD τ).loc main_arg2) : S256x4096.Idx → EReal) (ix2 k (colD d h)) := fun k =>
    (congrFun (iblk2_eq m c t) (ix2 k (colP h d))).trans (V_wd m c k h d)
  have e3 : (iblk (F := Ideal) m c 3 t : S4096.Idx → EReal) (ix1 (colP h d))
      = (m ((c : Thread nD τ).loc main_arg3) : S4096.Idx → EReal) (ix1 (colD d h)) :=
    (congrFun (iblk3_eq m c t) (ix1 (colP h d))).trans (V_bd m c h d)
  exact congrArg (fun z : EReal => max z 0)
    (congrArg₂ (fun a b : EReal => a + b)
      (Finset.sum_congr rfl fun k _ => congrArg₂ (fun a b : EReal => a * b) (e0 k) (e2 k)) e3)

theorem P_at (r : Fin 128) (h : Fin 16) (p : Fin 256) (hr : 128 * t.val + r.val < 4096) :
    k0_pay7 (F := Ideal) (iblk (F := Ideal) m c 1 t) (iblk (F := Ideal) m c 4 t) (iblk (F := Ideal) m c 5 t) (ix3 r h p)
      = proj (m ((c : Thread nD τ).loc main_arg1) : S4096x256.Idx → EReal) (m ((c : Thread nD τ).loc main_arg4) : S256x4096.Idx → EReal)
          (m ((c : Thread nD τ).loc main_arg5) : S4096.Idx → EReal) ⟨128 * t.val + r.val, hr⟩ (colP h p) := by
  refine (KPay.pay7_at (iblk (F := Ideal) m c 1 t) (iblk (F := Ideal) m c 4 t) (iblk (F := Ideal) m c 5 t) r h p).trans ?_
  have e1 : ∀ k : Fin 256, (iblk (F := Ideal) m c 1 t : S128x256.Idx → EReal) (ix2 r k)
      = (m ((c : Thread nD τ).loc main_arg1) : S4096x256.Idx → EReal) (ix2 ⟨128 * t.val + r.val, hr⟩ k) := fun k => iblk1_at m c t r k hr
  have e4 : ∀ k : Fin 256, (iblk (F := Ideal) m c 4 t : S256x4096.Idx → EReal) (ix2 k (colP h p))
      = (m ((c : Thread nD τ).loc main_arg4) : S256x4096.Idx → EReal) (ix2 k (colP h p)) := fun k =>
    (congrFun (iblk4_eq m c t) (ix2 k (colP h p))).trans (congrFun (V_wp m c) (ix2 k (colP h p)))
  have e5 : (iblk (F := Ideal) m c 5 t : S4096.Idx → EReal) (ix1 (colP h p))
      = (m ((c : Thread nD τ).loc main_arg5) : S4096.Idx → EReal) (ix1 (colP h p)) := congrFun (iblk5_eq m c t) (ix1 (colP h p))
  exact congrArg (fun z : EReal => max z 0)
    (congrArg₂ (fun a b : EReal => a + b)
      (Finset.sum_congr rfl fun k _ => congrArg₂ (fun a b : EReal => a * b) (e1 k) (e4 k)) e5)

/-! ## The two gated results

The leading factor is an entry of a block, whose type is the extended reals only after unfolding the window: the
product is written with its type given. -/

theorem block6_at (r : Fin 128) (d : Fin 256) (hr : 128 * t.val + r.val < 4096) :
    @HMul.hMul EReal EReal EReal _ ((iblk (F := Ideal) m c 0 t : S128x256.Idx → EReal) (ix2 r d))
        (CS (k0_pay6 (F := Ideal) (iblk (F := Ideal) m c 0 t) (iblk (F := Ideal) m c 2 t) (iblk (F := Ideal) m c 3 t)) (k0_pay7 (F := Ideal) (iblk (F := Ideal) m c 1 t) (iblk (F := Ideal) m c 4 t) (iblk (F := Ideal) m c 5 t)) r d)
      = drugOut (m ((c : Thread nD τ).loc main_arg0) : S4096x256.Idx → EReal) (m ((c : Thread nD τ).loc main_arg1) : S4096x256.Idx → EReal)
          (m ((c : Thread nD τ).loc main_arg2) : S256x4096.Idx → EReal) (m ((c : Thread nD τ).loc main_arg3) : S4096.Idx → EReal)
          (m ((c : Thread nD τ).loc main_arg4) : S256x4096.Idx → EReal) (m ((c : Thread nD τ).loc main_arg5) : S4096.Idx → EReal) ⟨128 * t.val + r.val, hr⟩ d := by
  unfold CS drugOut inter
  refine congrArg₂ (fun a b : EReal => a * b) (iblk0_at m c t r d hr)
    (congrArg Ideal.tanh (Finset.sum_congr rfl fun p _ => ?_))
  refine congrArg Ideal.tanh (congrArg (fun z : EReal => z * _) (Finset.sum_congr rfl fun h _ => ?_))
  exact congrArg₂ (fun a b : EReal => a * b) (D_at m c t r h d hr) (P_at m c t r h p hr)

theorem block7_at (r : Fin 128) (p : Fin 256) (hr : 128 * t.val + r.val < 4096) :
    @HMul.hMul EReal EReal EReal _ ((iblk (F := Ideal) m c 1 t : S128x256.Idx → EReal) (ix2 r p))
        (PS (k0_pay6 (F := Ideal) (iblk (F := Ideal) m c 0 t) (iblk (F := Ideal) m c 2 t) (iblk (F := Ideal) m c 3 t)) (k0_pay7 (F := Ideal) (iblk (F := Ideal) m c 1 t) (iblk (F := Ideal) m c 4 t) (iblk (F := Ideal) m c 5 t)) r p)
      = protOut (m ((c : Thread nD τ).loc main_arg0) : S4096x256.Idx → EReal) (m ((c : Thread nD τ).loc main_arg1) : S4096x256.Idx → EReal)
          (m ((c : Thread nD τ).loc main_arg2) : S256x4096.Idx → EReal) (m ((c : Thread nD τ).loc main_arg3) : S4096.Idx → EReal)
          (m ((c : Thread nD τ).loc main_arg4) : S256x4096.Idx → EReal) (m ((c : Thread nD τ).loc main_arg5) : S4096.Idx → EReal) ⟨128 * t.val + r.val, hr⟩ p := by
  unfold PS protOut inter
  refine congrArg₂ (fun a b : EReal => a * b) (iblk1_at m c t r p hr)
    (congrArg Ideal.tanh (Finset.sum_congr rfl fun d _ => ?_))
  refine congrArg Ideal.tanh (congrArg (fun z : EReal => z * _) (Finset.sum_congr rfl fun h _ => ?_))
  exact congrArg₂ (fun a b : EReal => a * b) (D_at m c t r h d hr) (P_at m c t r h p hr)

end Cert.KBlock

end
-- ==== Proof.ArrayValue.lean ====
/-
  From blocks to arrays. The region runs the body at 32 grid points; point t reads rows 128 t … 128 t + 127 of the two
  activations and writes back rows 128 t … 128 t + 127 of the two results. What it writes back at local (r, d) is the
  body's value, which is the specification's entry at row 128 t + r; the 32 row blocks tile the 4096 rows (row b is in
  block b / 128); so after the run each result array is the specification's array of the launched arguments.
-/
import proofs.«156675_j88983132438605_2_alg».proof.Proof.Spec
import proofs.«156675_j88983132438605_2_alg».proof.Proof.BodyValue
import proofs.«156675_j88983132438605_2_alg».proof.Proof.BlockValue
import proofs.«156675_j88983132438605_2_alg».proof.Proof.KernelIdealValue
import Idealize.ShloMosaic.Lib.Pipeline.Value

set_option maxRecDepth 16384

noncomputable section

open scoped BigOperators

namespace Cert.KArr

open Cert.KernelIdeal Cert.KernelIdeal.Gen Cert.KernelIdeal.GenP Idealize.ShloMosaic Idealize.ShloMosaic.TcCoe
open Idealize.SL.Sem Idealize.ShloMosaic.ValueIdx Cert.Spec Cert.KVal Cert.KBlock
open Idealize.ShloMosaic.Pipeline (Dat)

variable (m : (ℓ : Loc nD τ sig) → Buf (Elt Ideal) ℓ) (ρ : Dev nD → PrngReg)

/-- The first result, as the specification's function of the launched arguments. -/
abbrev R0 (c : Dev nD) : S4096x256.Idx → EReal := drugArr (m ((c : Thread nD τ).loc main_arg0) : S4096x256.Idx → EReal) (m ((c : Thread nD τ).loc main_arg1) : S4096x256.Idx → EReal) (m ((c : Thread nD τ).loc main_arg2) : S256x4096.Idx → EReal) (m ((c : Thread nD τ).loc main_arg3) : S4096.Idx → EReal) (m ((c : Thread nD τ).loc main_arg4) : S256x4096.Idx → EReal) (m ((c : Thread nD τ).loc main_arg5) : S4096.Idx → EReal)

/-- The second. -/
abbrev R1 (c : Dev nD) : S4096x256.Idx → EReal := protArr (m ((c : Thread nD τ).loc main_arg0) : S4096x256.Idx → EReal) (m ((c : Thread nD τ).loc main_arg1) : S4096x256.Idx → EReal) (m ((c : Thread nD τ).loc main_arg2) : S256x4096.Idx → EReal) (m ((c : Thread nD τ).loc main_arg3) : S4096.Idx → EReal) (m ((c : Thread nD τ).loc main_arg4) : S256x4096.Idx → EReal) (m ((c : Thread nD τ).loc main_arg5) : S4096.Idx → EReal)

/-- A first-output block entry is the specification's, at the array index it is written to. -/
theorem block6_pt (c : Dev nD) (t : Fin cfg0.N) (r : Fin 128) (d : Fin 256) (i : S4096x256.Idx)
    (h0 : (i 0).val = 128 * t.val + r.val) (h1 : (i 1).val = d.val) :
    @HMul.hMul EReal EReal EReal _ ((iblk (F := Ideal) m c 0 t : S128x256.Idx → EReal) (ix2 r d)) (CS (k0_pay6 (F := Ideal) (iblk (F := Ideal) m c 0 t) (iblk (F := Ideal) m c 2 t) (iblk (F := Ideal) m c 3 t)) (k0_pay7 (F := Ideal) (iblk (F := Ideal) m c 1 t) (iblk (F := Ideal) m c 4 t) (iblk (F := Ideal) m c 5 t)) r d) = R0 m c i := by
  have hi : (i 0).val < 4096 := (i 0).isLt
  have hr : 128 * t.val + r.val < 4096 := by omega
  rw [block6_at m c t r d hr]
  have e0 : (⟨128 * t.val + r.val, hr⟩ : Fin 4096) = i 0 := Fin.ext h0.symm
  have e1 : d = i 1 := Fin.ext h1.symm
  rw [e0, e1]
  rfl

/-- A second-output block entry likewise. -/
theorem block7_pt (c : Dev nD) (t : Fin cfg0.N) (r : Fin 128) (p : Fin 256) (i : S4096x256.Idx)
    (h0 : (i 0).val = 128 * t.val + r.val) (h1 : (i 1).val = p.val) :
    @HMul.hMul EReal EReal EReal _ ((iblk (F := Ideal) m c 1 t : S128x256.Idx → EReal) (ix2 r p)) (PS (k0_pay6 (F := Ideal) (iblk (F := Ideal) m c 0 t) (iblk (F := Ideal) m c 2 t) (iblk (F := Ideal) m c 3 t)) (k0_pay7 (F := Ideal) (iblk (F := Ideal) m c 1 t) (iblk (F := Ideal) m c 4 t) (iblk (F := Ideal) m c 5 t)) r p) = R1 m c i := by
  have hi : (i 0).val < 4096 := (i 0).isLt
  have hr : 128 * t.val + r.val < 4096 := by omega
  rw [block7_at m c t r p hr]
  have e0 : (⟨128 * t.val + r.val, hr⟩ : Fin 4096) = i 0 := Fin.ext h0.symm
  have e1 : p = i 1 := Fin.ext h1.symm
  rw [e0, e1]
  rfl

/-- Output window 6's block index at point `t` is `(t, 0)` (decided over the grid). -/
theorem idx6 : ∀ t : Fin cfg0.N, win0_6.index t (0 : Fin 2) = t.val ∧ win0_6.index t (1 : Fin 2) = 0 :=
  (by decide +kernel : ∀ t : Fin grid0.N, _)

/-- WHAT POINT `t` WRITES BACK through output window 6 is block `t` of the result. -/
theorem flushed6_eq (c : Dev nD) (t : Fin cfg0.N) :
    (dats m 0 c).flushed 6 t = ((cfg0.win 6).blk t).view.read (Elt Ideal) (R0 m c) := by
  rw [Cert.KernelIdeal.ValueP.flushed6_A]
  rw [out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t)]
  refine funext fun (j : S128x256.Idx) => ?_
  obtain ⟨r, d, rfl⟩ : ∃ (r : Fin 128) (d : Fin 256), j = ix2 r d := ⟨j 0, j 1, eq_ix2 j⟩
  obtain ⟨e0, e1⟩ := idx6 t
  show @HMul.hMul EReal EReal EReal _ ((iblk (F := Ideal) m c 0 t : S128x256.Idx → EReal) (ix2 r d)) _ = R0 m c (((cfg0.win 6).blk t).view.emb (ix2 r d))
  exact block6_pt m c t r d _
    (by show win0_6.index t (0 : Fin 2) * 128 + 1 * r.val = 128 * t.val + r.val; omega)
    (by show win0_6.index t (1 : Fin 2) * 256 + 1 * d.val = d.val; omega)

/-- An index of the array is in point `t`'s block iff each coordinate is in the block's range on its axis. -/
theorem mem_blk6 (t : Fin cfg0.N) (i : S4096x256.Idx) :
    i ∈ ((cfg0.win 6).blk t).view.set ↔ ∀ a : Fin 2, win0_6.index t a * S128x256.size a ≤ (i a).val ∧ (i a).val < win0_6.index t a * S128x256.size a + S128x256.size a := by
  show i ∈ ((View.whole main_v0_0).slice (win0_6.rect t)).set ↔ _
  rw [View.set_slice_whole, Rect.mem_set_unit]
  exact Iff.rfl

/-- Every index of the array is in some point's block: row `b` is in block `b / 128`. -/
theorem cover6 (i : S4096x256.Idx) : ∃ t : Fin cfg0.N, (cfg0.win 6).flush t = true ∧ i ∈ ((cfg0.win 6).blk t).view.set := by
  have hN : cfg0.N = 32 := N_0
  have h0 : (i 0).val < 4096 := (i 0).isLt
  have h1 : (i 1).val < 256 := (i 1).isLt
  obtain ⟨tt, htt⟩ : ∃ tt : Fin cfg0.N, tt.val = (i 0).val / 128 := ⟨⟨(i 0).val / 128, by rw [hN]; omega⟩, rfl⟩
  obtain ⟨e0, e1⟩ := idx6 tt
  refine ⟨tt, flush0_6 tt, ?_⟩
  rw [mem_blk6]
  intro a
  match a with
  | ⟨0, _⟩ => show win0_6.index tt (0 : Fin 2) * 128 ≤ (i 0).val ∧ (i 0).val < win0_6.index tt (0 : Fin 2) * 128 + 128; omega
  | ⟨1, _⟩ => show win0_6.index tt (1 : Fin 2) * 256 ≤ (i 1).val ∧ (i 1).val < win0_6.index tt (1 : Fin 2) * 256 + 256; omega

/-- THE ARRAY after the run. -/
theorem final6 (c : Dev nD) : (dats m 0 c).arrAt 6 cfg0.N = R0 m c :=
  (dats m 0 c).arrAt_eq_of_cover 6 (R0 m c) (fun t _ => flushed6_eq m c t) (cover6)

/-- Output window 7's block index at point `t` is `(t, 0)` (decided over the grid). -/
theorem idx7 : ∀ t : Fin cfg0.N, win0_7.index t (0 : Fin 2) = t.val ∧ win0_7.index t (1 : Fin 2) = 0 :=
  (by decide +kernel : ∀ t : Fin grid0.N, _)

/-- WHAT POINT `t` WRITES BACK through output window 7 is block `t` of the result. -/
theorem flushed7_eq (c : Dev nD) (t : Fin cfg0.N) :
    (dats m 0 c).flushed 7 t = ((cfg0.win 7).blk t).view.read (Elt Ideal) (R1 m c) := by
  rw [Cert.KernelIdeal.ValueP.flushed7_A]
  rw [out7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t)]
  refine funext fun (j : S128x256.Idx) => ?_
  obtain ⟨r, d, rfl⟩ : ∃ (r : Fin 128) (d : Fin 256), j = ix2 r d := ⟨j 0, j 1, eq_ix2 j⟩
  obtain ⟨e0, e1⟩ := idx7 t
  show @HMul.hMul EReal EReal EReal _ ((iblk (F := Ideal) m c 1 t : S128x256.Idx → EReal) (ix2 r d)) _ = R1 m c (((cfg0.win 7).blk t).view.emb (ix2 r d))
  exact block7_pt m c t r d _
    (by show win0_7.index t (0 : Fin 2) * 128 + 1 * r.val = 128 * t.val + r.val; omega)
    (by show win0_7.index t (1 : Fin 2) * 256 + 1 * d.val = d.val; omega)

/-- An index of the array is in point `t`'s block iff each coordinate is in the block's range on its axis. -/
theorem mem_blk7 (t : Fin cfg0.N) (i : S4096x256.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v0_1).slice (win0_7.rect t)).set ↔ _
  rw [View.set_slice_whole, Rect.mem_set_unit]
  exact Iff.rfl

/-- Every index of the array is in some point's block: row `b` is in block `b / 128`. -/
theorem cover7 (i : S4096x256.Idx) : ∃ t : Fin cfg0.N, (cfg0.win 7).flush t = true ∧ i ∈ ((cfg0.win 7).blk t).view.set := by
  have hN : cfg0.N = 32 := N_0
  have h0 : (i 0).val < 4096 := (i 0).isLt
  have h1 : (i 1).val < 256 := (i 1).isLt
  obtain ⟨tt, htt⟩ : ∃ tt : Fin cfg0.N, tt.val = (i 0).val / 128 := ⟨⟨(i 0).val / 128, by rw [hN]; omega⟩, rfl⟩
  obtain ⟨e0, e1⟩ := idx7 tt
  refine ⟨tt, flush0_7 tt, ?_⟩
  rw [mem_blk7]
  intro a
  match a with
  | ⟨0, _⟩ => show win0_7.index tt (0 : Fin 2) * 128 ≤ (i 0).val ∧ (i 0).val < win0_7.index tt (0 : Fin 2) * 128 + 128; omega
  | ⟨1, _⟩ => show win0_7.index tt (1 : Fin 2) * 256 ≤ (i 1).val ∧ (i 1).val < win0_7.index tt (1 : Fin 2) * 256 + 256; omega

/-- THE ARRAY after the run. -/
theorem final7 (c : Dev nD) : (dats m 0 c).arrAt 7 cfg0.N = R1 m c :=
  (dats m 0 c).arrAt_eq_of_cover 7 (R1 m c) (fun t _ => flushed7_eq m c t) (cover7)

/-- THE RUN, read: each result array at the specification's function of the launched arguments, the arguments unchanged. -/
theorem run : θ_run defs (onTc (τ := τ) (main (F := Ideal))) ⟨m, fun _ => 0, ρ⟩ fun r => ∀ c : Dev nD,
      r.2.mem ((c : Thread nD τ).loc main_v0_0) = R0 m c
      ∧ r.2.mem ((c : Thread nD τ).loc main_v0_1) = R1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Cert.KernelIdeal.ValueP.run_blocks m ρ)

end Cert.KArr

end
-- ==== Proof.lean ====
/-
  The kernel and its reference compute the same two arrays on the extended reals.

  Both take a drug and a protein activation of 4096 rows and 256 features, project each to 4096 = 256 · 16 columns
  (a matrix product, a bias, the positive part), contract the two projections over their sixteen heads into a
  256 × 256 interaction map per row, scale it by 1/16, take tanh, sum the map over each of its two axes, take tanh
  again, and gate each activation by the sum along the other's axis (Proof/Spec.lean states this index by index).

  The reference does it whole, on the host: Proof/RefValue.lean reads its operations one at a time at an index.
  The kernel does it in 32 row blocks of 128 rows. Its host side first permutes the drug projection's weight columns
  and bias from head-minor (column 16 d + h) to head-major (column 256 h + d) order (Proof/HostPrefix.lean), so that
  both projections recast to (row, head, feature) without a transpose; the body stores the two projections in scratch
  buffers, then a counted loop of eight trips of 16 rows forms the interaction map chunk by chunk and stores its two
  summed and squashed forms in two further scratch buffers (Proof/LoopPieces.lean: after the loop each is one function
  of the projections, row by row), which the body reads back whole and multiplies into its blocks
  (Proof/BodyValue.lean, Proof/KernelPayloads.lean, Proof/BlockValue.lean); the 32 blocks tile the rows
  (Proof/ArrayValue.lean).

  The two sides differ in three ways, none of which changes an extended real: the order and grouping of the sums
  (a block of rows at a time, a chunk of a block at a time); the rounding to a narrower format before each product,
  which is the identity here; and the scale, which the kernel multiplies in as 0.0625 and the reference divides out as
  16.0 — dividing an extended real by 16 IS multiplying it by 1/16, infinities included, so the precondition that the
  inputs are finite is never opened. The frames of the two kernel programs are their generated frame certificates,
  taken through copies in which the whole-body run is repaired (Proof/KernelRunA.lean, Proof/KernelIdealRunA.lean);
  the reference's frame is its generated run with the results dropped.
-/
import proofs.«156675_j88983132438605_2_alg».proof.Defs
import proofs.«156675_j88983132438605_2_alg».proof.Proof.Gen.Kernel
import proofs.«156675_j88983132438605_2_alg».proof.Proof.Gen.KernelIdeal
import proofs.«156675_j88983132438605_2_alg».proof.Proof.Gen.ReferenceIdeal
import proofs.«156675_j88983132438605_2_alg».proof.Proof.Gen.Pre_finite_inputs
import proofs.«156675_j88983132438605_2_alg».proof.Proof.Gen.ReferenceIdeal.Run
import proofs.«156675_j88983132438605_2_alg».proof.Proof.Gen.ReferenceIdeal.Read
import proofs.«156675_j88983132438605_2_alg».proof.Proof.KernelFrame
import proofs.«156675_j88983132438605_2_alg».proof.Proof.KernelIdealFrame
import proofs.«156675_j88983132438605_2_alg».proof.Proof.RefValue
import proofs.«156675_j88983132438605_2_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification's two arrays of the arguments, which agree. -/
theorem algebraic : Cert.algebraic_KernelIdeal_ReferenceIdeal := by
  intro m ρ m' ρ' _ hagree
  refine ⟨fun c => Cert.KArr.R0 m c, fun c => Cert.KArr.R1 m c, Cert.KArr.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v20_eq _ _ _ _ _ _).trans
      ((Cert.RefValue.result0_eq _ _ _ _ _ _).trans ?_))
    rw [(hagree c).1, (hagree c).2.1, (hagree c).2.2.1, (hagree c).2.2.2.1, (hagree c).2.2.2.2.1, (hagree c).2.2.2.2.2]
  · refine (h c).2.1.trans ((Cert.ReferenceIdeal.Read.val_main_v21_eq _ _ _ _ _ _).trans
      ((Cert.RefValue.result1_eq _ _ _ _ _ _).trans ?_))
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
